-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1024 : Shape := ⟨2, ![4096, 1024]⟩
abbrev S1024x1536 : Shape := ⟨2, ![1024, 1536]⟩
abbrev S1024 : Shape := ⟨1, ![1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S1024 : S_.BroadcastsInDim S1024 (![] : Fin 0 → Fin S1024.rank)
  reducesTo_S1024_S_d0 : S1024.ReducesTo [0] S_

variable [Facts]

def fn_part6 {F : FTy → Type} [FloatOps F] (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  main_v103

def fn_part5 {F : FTy → Type} [FloatOps F] (main_arg18 : FVec F S1024 .f32) (main_arg19 : FVec F S1024x1536 .f32) (main_arg20 : FVec F S1024 .f32) (main_v83 : IVec S_ 1) (main_v84 : FVec F S1024x1536 .f32) (main_cst_32 : FVec F S_ .f32) : IVec S_ 1 :=
  let main_v85 : FVec F S1024x1536 .f32 := broadcastInDim S1024x1536 ![] bcast_S_S1024x1536 main_cst_32
  let main_v86 : IVec S1024x1536 1 := cmpf .olt main_v84 main_v85
  let main_c_33 : IVec S_ 1 := constantI S_ 1 1#1
  let main_v87 : IVec S_ 1 := (fun x v => Host.reduce IntOp.andi x v reducesTo_S1024x1536_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x1536 .f32 := Host.absf main_arg19
  let main_cst_36 : FVec F S_ .f32 := constant S_ .f32 0x7F800000#32
  let main_v95 : FVec F S1024x1536 .f32 := broadcastInDim S1024x1536 ![] bcast_S_S1024x1536 main_cst_36
  let main_v96 : IVec S1024x1536 1 := cmpf .olt main_v94 main_v95
  let main_c_37 : IVec S_ 1 := constantI S_ 1 1#1
  let main_v97 : IVec S_ 1 := (fun x v => Host.reduce IntOp.andi x v reducesTo_S1024x1536_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_v98 main_v101 main_c_39

def fn_part4 {F : FTy → Type} [FloatOps F] (main_arg14 : FVec F S1024 .f32) (main_arg15 : FVec F S1024x1536 .f32) (main_arg16 : FVec F S1024 .f32) (main_arg17 : FVec F S1024x1536 .f32) (main_arg18 : FVec F S1024 .f32) (main_arg19 : FVec F S1024x1536 .f32) (main_arg20 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1536 .f32 := Host.absf main_arg15
  let main_cst_28 : FVec F S_ .f32 := constant S_ .f32 0x7F800000#32
  let main_v75 : FVec F S1024x1536 .f32 := broadcastInDim S1024x1536 ![] bcast_S_S1024x1536 main_cst_28
  let main_v76 : IVec S1024x1536 1 := cmpf .olt main_v74 main_v75
  let main_c_29 : IVec S_ 1 := constantI S_ 1 1#1
  let main_v77 : IVec S_ 1 := (fun x v => Host.reduce IntOp.andi x v reducesTo_S1024x1536_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1536 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S1024x1536 .f32) (main_arg12 : FVec F S1024 .f32) (main_arg13 : FVec F S1024x1536 .f32) (main_arg14 : FVec F S1024 .f32) (main_arg15 : FVec F S1024x1536 .f32) (main_arg16 : FVec F S1024 .f32) (main_arg17 : FVec F S1024x1536 .f32) (main_arg18 : FVec F S1024 .f32) (main_arg19 : FVec F S1024x1536 .f32) (main_arg20 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1536 .f32 := Host.absf main_arg11
  let main_cst_20 : FVec F S_ .f32 := constant S_ .f32 0x7F800000#32
  let main_v55 : FVec F S1024x1536 .f32 := broadcastInDim S1024x1536 ![] bcast_S_S1024x1536 main_cst_20
  let main_v56 : IVec S1024x1536 1 := cmpf .olt main_v54 main_v55
  let main_c_21 : IVec S_ 1 := constantI S_ 1 1#1
  let main_v57 : IVec S_ 1 := (fun x v => Host.reduce IntOp.andi x v reducesTo_S1024x1536_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1536 .f32 := Host.absf main_arg13
  let main_cst_24 : FVec F S_ .f32 := constant S_ .f32 0x7F800000#32
  let main_v65 : FVec F S1024x1536 .f32 := broadcastInDim S1024x1536 ![] bcast_S_S1024x1536 main_cst_24
  let main_v66 : IVec S1024x1536 1 := cmpf .olt main_v64 main_v65
  let main_c_25 : IVec S_ 1 := constantI S_ 1 1#1
  let main_v67 : IVec S_ 1 := (fun x v => Host.reduce IntOp.andi x v reducesTo_S1024x1536_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S1024x1536 .f32) (main_arg8 : FVec F S1024 .f32) (main_arg9 : FVec F S1024x1536 .f32) (main_arg10 : FVec F S1024 .f32) (main_arg11 : FVec F S1024x1536 .f32) (main_arg12 : FVec F S1024 .f32) (main_arg13 : FVec F S1024x1536 .f32) (main_arg14 : FVec F S1024 .f32) (main_arg15 : FVec F S1024x1536 .f32) (main_arg16 : FVec F S1024 .f32) (main_arg17 : FVec F S1024x1536 .f32) (main_arg18 : FVec F S1024 .f32) (main_arg19 : FVec F S1024x1536 .f32) (main_arg20 : FVec F S1024 .f32) (main_v33 : IVec S_ 1) : IVec S_ 1 :=
  let main_v34 : FVec F S1024x1536 .f32 := Host.absf main_arg7
  let main_cst_12 : FVec F S_ .f32 := constant S_ .f32 0x7F800000#32
  let main_v35 : FVec F S1024x1536 .f32 := broadcastInDim S1024x1536 ![] bcast_S_S1024x1536 main_cst_12
  let main_v36 : IVec S1024x1536 1 := cmpf .olt main_v34 main_v35
  let main_c_13 : IVec S_ 1 := constantI S_ 1 1#1
  let main_v37 : IVec S_ 1 := (fun x v => Host.reduce IntOp.andi x v reducesTo_S1024x1536_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1536 .f32 := Host.absf main_arg9
  let main_cst_16 : FVec F S_ .f32 := constant S_ .f32 0x7F800000#32
  let main_v45 : FVec F S1024x1536 .f32 := broadcastInDim S1024x1536 ![] bcast_S_S1024x1536 main_cst_16
  let main_v46 : IVec S1024x1536 1 := cmpf .olt main_v44 main_v45
  let main_c_17 : IVec S_ 1 := constantI S_ 1 1#1
  let main_v47 : IVec S_ 1 := (fun x v => Host.reduce IntOp.andi x v reducesTo_S1024x1536_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S4096x1024 .f32) (main_arg5 : FVec F S1024x1536 .f32) (main_arg6 : FVec F S1024 .f32) (main_arg7 : FVec F S1024x1536 .f32) (main_arg8 : FVec F S1024 .f32) (main_arg9 : FVec F S1024x1536 .f32) (main_arg10 : FVec F S1024 .f32) (main_arg11 : FVec F S1024x1536 .f32) (main_arg12 : FVec F S1024 .f32) (main_arg13 : FVec F S1024x1536 .f32) (main_arg14 : FVec F S1024 .f32) (main_arg15 : FVec F S1024x1536 .f32) (main_arg16 : FVec F S1024 .f32) (main_arg17 : FVec F S1024x1536 .f32) (main_arg18 : FVec F S1024 .f32) (main_arg19 : FVec F S1024x1536 .f32) (main_arg20 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024x1536 .f32 := Host.absf main_arg5
  let main_cst_8 : FVec F S_ .f32 := constant S_ .f32 0x7F800000#32
  let main_v25 : FVec F S1024x1536 .f32 := broadcastInDim S1024x1536 ![] bcast_S_S1024x1536 main_cst_8
  let main_v26 : IVec S1024x1536 1 := cmpf .olt main_v24 main_v25
  let main_c_9 : IVec S_ 1 := constantI S_ 1 1#1
  let main_v27 : IVec S_ 1 := (fun x v => Host.reduce IntOp.andi x v reducesTo_S1024x1536_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S4096x512 .f32) (main_arg1 : FVec F S4096x1024 .f32) (main_arg2 : FVec F S4096x1024 .f32) (main_arg3 : FVec F S4096x1024 .f32) (main_arg4 : FVec F S4096x1024 .f32) (main_arg5 : FVec F S1024x1536 .f32) (main_arg6 : FVec F S1024 .f32) (main_arg7 : FVec F S1024x1536 .f32) (main_arg8 : FVec F S1024 .f32) (main_arg9 : FVec F S1024x1536 .f32) (main_arg10 : FVec F S1024 .f32) (main_arg11 : FVec F S1024x1536 .f32) (main_arg12 : FVec F S1024 .f32) (main_arg13 : FVec F S1024x1536 .f32) (main_arg14 : FVec F S1024 .f32) (main_arg15 : FVec F S1024x1536 .f32) (main_arg16 : FVec F S1024 .f32) (main_arg17 : FVec F S1024x1536 .f32) (main_arg18 : FVec F S1024 .f32) (main_arg19 : FVec F S1024x1536 .f32) (main_arg20 : FVec F S1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4096x512 : Shape := ⟨2, ![4096, 512]⟩
abbrev S4096x1024 : Shape := ⟨2, ![4096, 1024]⟩
abbrev S1024x1536 : Shape := ⟨2, ![1024, 1536]⟩
abbrev S1024 : Shape := ⟨1, ![1024]⟩
abbrev S1024x1024 : Shape := ⟨2, ![1024, 1024]⟩
abbrev S1024x512 : Shape := ⟨2, ![1024, 512]⟩
abbrev S4096 : Shape := ⟨1, ![4096]⟩
abbrev S1x4096 : Shape := ⟨2, ![1, 4096]⟩
abbrev S128x1024 : Shape := ⟨2, ![128, 1024]⟩
abbrev S128x512 : Shape := ⟨2, ![128, 512]⟩
abbrev S128x4096 : Shape := ⟨2, ![128, 4096]⟩

abbrev nBuf : Space → Nat
  | .hbm => 51
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1536, .f32⟩
  | .hbm, ⟨6, _⟩ => ⟨S1024, .f32⟩
  | .hbm, ⟨7, _⟩ => ⟨S1024x1536, .f32⟩
  | .hbm, ⟨8, _⟩ => ⟨S1024, .f32⟩
  | .hbm, ⟨9, _⟩ => ⟨S1024x1536, .f32⟩
  | .hbm, ⟨10, _⟩ => ⟨S1024, .f32⟩
  | .hbm, ⟨11, _⟩ => ⟨S1024x1536, .f32⟩
  | .hbm, ⟨12, _⟩ => ⟨S1024, .f32⟩
  | .hbm, ⟨13, _⟩ => ⟨S1024x1536, .f32⟩
  | .hbm, ⟨14, _⟩ => ⟨S1024, .f32⟩
  | .hbm, ⟨15, _⟩ => ⟨S1024x1536, .f32⟩
  | .hbm, ⟨16, _⟩ => ⟨S1024, .f32⟩
  | .hbm, ⟨17, _⟩ => ⟨S1024x1536, .f32⟩
  | .hbm, ⟨18, _⟩ => ⟨S1024, .f32⟩
  | .hbm, ⟨19, _⟩ => ⟨S1024x1536, .f32⟩
  | .hbm, ⟨20, _⟩ => ⟨S1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S4096x1024, .f32⟩
  | .hbm, ⟨26, _⟩ => ⟨S4096x1024, .bf16⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S4096x512, .f32⟩
  | .hbm, ⟨32, _⟩ => ⟨S4096x512, .bf16⟩
  | .hbm, ⟨33, _⟩ => ⟨S4096, .f32⟩
  | .hbm, ⟨34, _⟩ => ⟨S1x4096, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S4096x1024, .f32⟩
  | .hbm, ⟨40, _⟩ => ⟨S4096x1024, .bf16⟩
  | .hbm, ⟨41, _⟩ => ⟨S1024x512, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S4096x512, .f32⟩
  | .hbm, ⟨46, _⟩ => ⟨S4096x512, .bf16⟩
  | .hbm, ⟨47, _⟩ => ⟨S4096, .f32⟩
  | .hbm, ⟨48, _⟩ => ⟨S1x4096, .f32⟩
  | .hbm, ⟨49, _⟩ => ⟨S4096x1024, .f32⟩
  | .hbm, ⟨50, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x512, .f32⟩
  | .local _ .vmem, ⟨5, _⟩ => ⟨S128x512, .f32⟩
  | .local _ .vmem, ⟨6, _⟩ => ⟨S128x1024, .f32⟩
  | .local _ .vmem, ⟨7, _⟩ => ⟨S128x1024, .f32⟩
  | .local _ .vmem, ⟨8, _⟩ => ⟨S4096x1024, .bf16⟩
  | .local _ .vmem, ⟨9, _⟩ => ⟨S4096x512, .bf16⟩
  | .local _ .vmem, ⟨10, _⟩ => ⟨S1x4096, .f32⟩
  | .local _ .vmem, ⟨11, _⟩ => ⟨S4096x1024, .bf16⟩
  | .local _ .vmem, ⟨12, _⟩ => ⟨S4096x512, .bf16⟩
  | .local _ .vmem, ⟨13, _⟩ => ⟨S1x4096, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28_0 : Ref sig .tc := ⟨.hbm, 49, rfl⟩
abbrev main_v28_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1024x1536_S1024x1024_0_0 : S1024x1536.Slices ![0, 0] S1024x1024
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  slices_S1024x1536_S1024x512_0_1024 : S1024x1536.Slices ![0, 1024] S1024x512
  concatenates_S1024x512_S1024x512_S1024x512_S1024x512_S4096x512_d0 : Shape.Concatenates [S1024x512, S1024x512, S1024x512, S1024x512] S4096x512 0
  concatenates_S1024_S1024_S1024_S1024_S4096_d0 : Shape.Concatenates [S1024, S1024, S1024, S1024] S4096 0
  shapeCasts_S4096_S1x4096 : S4096.ShapeCasts S1x4096
  inb_S128x512_S128x512_0_0 : ∀ a, (![0, 0] : Fin 2 → Nat) a + S128x512.size a ≤ S128x512.size a
  h_S128x512 : 0 < S128x512.numel
  inb_S128x1024_S128x1024_0_0 : ∀ a, (![0, 0] : Fin 2 → Nat) a + S128x1024.size a ≤ S128x1024.size a
  h_S128x1024 : 0 < S128x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S4096x1024_S128x4096_1_1_0_0_n_n_wf : DotDims.WF S128x1024 S4096x1024 S128x4096 [1] [1] [0] [0] [] []
  dot_S128x512_S4096x512_S128x4096_1_1_0_0_n_n_wf : DotDims.WF S128x512 S4096x512 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S4096x512.size a
  hwx0_2 : ∀ i : grid0.Coords, EltTy.bits .f32 = 32 ∨ (Rect.block (s := S4096x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S4096x1024.size a
  hwx0_3 : ∀ i : grid0.Coords, EltTy.bits .f32 = 32 ∨ (Rect.block (s := S4096x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x512.size a ≤ S4096x512.size a
  hwx0_5 : ∀ i : grid0.Coords, EltTy.bits .bf16 = 32 ∨ (Rect.block (s := S4096x512) S4096x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x1024.size a ≤ S4096x1024.size a
  hwx0_7 : ∀ i : grid0.Coords, EltTy.bits .bf16 = 32 ∨ (Rect.block (s := S4096x1024) S4096x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x512.size a ≤ S4096x512.size a
  hwx0_8 : ∀ i : grid0.Coords, EltTy.bits .bf16 = 32 ∨ (Rect.block (s := S4096x512) S4096x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S4096x1024.size a
  hwx0_10 : ∀ i : grid0.Coords, EltTy.bits .f32 = 32 ∨ (Rect.block (s := S4096x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S4096x1024.size a
  hwx0_11 : ∀ i : grid0.Coords, EltTy.bits .f32 = 32 ∨ (Rect.block (s := S4096x1024) S128x1024.size (cc0_transform_11 i) (hinb0_11 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf
def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf

abbrev win0_0 : Pipeline.Window sig grid0 :=
  Pipeline.Window.ofSpec (Memref.whole main_arg1) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S4096x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S4096x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S4096x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28_0) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v28_1) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x1024 : Shape := ⟨2, ![4096, 1024]⟩
abbrev S1024x1536 : Shape := ⟨2, ![1024, 1536]⟩
abbrev S1024 : Shape := ⟨1, ![1024]⟩
abbrev S4096x1536 : Shape := ⟨2, ![4096, 1536]⟩
abbrev S4096 : Shape := ⟨1, ![4096]⟩
abbrev S1536x4096 : Shape := ⟨2, ![1536, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 105
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1536, .f32⟩
  | .hbm, ⟨6, _⟩ => ⟨S1024, .f32⟩
  | .hbm, ⟨7, _⟩ => ⟨S1024x1536, .f32⟩
  | .hbm, ⟨8, _⟩ => ⟨S1024, .f32⟩
  | .hbm, ⟨9, _⟩ => ⟨S1024x1536, .f32⟩
  | .hbm, ⟨10, _⟩ => ⟨S1024, .f32⟩
  | .hbm, ⟨11, _⟩ => ⟨S1024x1536, .f32⟩
  | .hbm, ⟨12, _⟩ => ⟨S1024, .f32⟩
  | .hbm, ⟨13, _⟩ => ⟨S1024x1536, .f32⟩
  | .hbm, ⟨14, _⟩ => ⟨S1024, .f32⟩
  | .hbm, ⟨15, _⟩ => ⟨S1024x1536, .f32⟩
  | .hbm, ⟨16, _⟩ => ⟨S1024, .f32⟩
  | .hbm, ⟨17, _⟩ => ⟨S1024x1536, .f32⟩
  | .hbm, ⟨18, _⟩ => ⟨S1024, .f32⟩
  | .hbm, ⟨19, _⟩ => ⟨S1024x1536, .f32⟩
  | .hbm, ⟨20, _⟩ => ⟨S1024, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S4096, .f32⟩
  | .hbm, ⟨25, _⟩ => ⟨S1536x4096, .f32⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1536, .f32⟩
  | .hbm, ⟨60, _⟩ => ⟨S4096, .f32⟩
  | .hbm, ⟨61, _⟩ => ⟨S1536x4096, .f32⟩
  | .hbm, ⟨62, _⟩ => ⟨S4096x4096, .f32⟩
  | .hbm, ⟨63, _⟩ => ⟨S1x4096, .f32⟩
  | .hbm, ⟨64, _⟩ => ⟨S4096x4096, .f32⟩
  | .hbm, ⟨65, _⟩ => ⟨S4096x4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]

class Facts₀ : Prop where
  concatenates_S4096x1024_S4096x512_S4096x1536_d1 : Shape.Concatenates [S4096x1024, S4096x512] S4096x1536 1
  concatenates_S1024x1536_S1024x1536_S1024x1536_S1024x1536_S4096x1536_d0 : Shape.Concatenates [S1024x1536, S1024x1536, S1024x1536, S1024x1536] S4096x1536 0
  concatenates_S1024_S1024_S1024_S1024_S4096_d0 : Shape.Concatenates [S1024, S1024, S1024, S1024] S4096 0
  transposes_S4096x1536_S1536x4096_1_0 : S4096x1536.Transposes [1, 0] S1536x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1536_S1536x4096_S4096x4096_1_0_0_1_n_n_wf : DotDims.WF S4096x1536 S1536x4096 S4096x4096 [1] [0] [0] [1] [] []

variable [Facts₀]

def dot_S4096x1536_S1536x4096_S4096x4096_1_0_0_1_n_n : DotDims S4096x1536 S1536x4096 S4096x4096 where
  lhsContracting := [1]
  rhsContracting := [0]
  lhsNonContracting := [0]
  rhsNonContracting := [1]
  lhsBatch := []
  rhsBatch := []
  wf := dot_S4096x1536_S1536x4096_S4096x4096_1_0_0_1_n_n_wf

class Facts : Prop extends Facts₀ where

variable [Facts]
-- ==== Proof.KBEntry.lean ====
/-
  The program up to its one kernel region.

  Before the region the host stacks each branch's four gate matrices: the hidden columns (0 … 1023) of the four
  `1024 × 1536` weights into one `4096 × 1024` array and the input columns (1024 … 1535) into one `4096 × 512`
  array, both narrowed to the half-width float format, and the four biases into one row of 4096. `V` is what every
  buffer holds when the region is entered — the launch contents pushed through those host operations — and `hmain`
  says the program is that line of host operations followed by the region. None of the operations writes an
  argument array, so the region finds every argument as it was launched (`V_main_argK`).
-/
import proofs.«145507_j13769665150976_2_alg».proof.Proof.Gen.Kernel.Launch
import Idealize.ShloMosaic.Lib.Pipeline.FrameBody
import Idealize.ShloMosaic.Lib.StableHlo.Run

noncomputable section

namespace Cert.Kernel.Entry

open Cert.Kernel Cert.Kernel.Gen
open Idealize.ShloMosaic Idealize.ShloMosaic.TcCoe
open Idealize.SL Idealize.SL.RA Idealize.SL.BI
open Idealize.SL.Sem

variable {F : FTy → Type} [FloatOps F]

variable (m : (ℓ : Loc nD τ sig) → Buf (Elt F) ℓ)

/-- Core `c`'s buffers when the region is entered: the launch contents after the host operations. -/
abbrev V (c : Dev nD) (b : Ref sig .tc) : Buf (Elt F) ((c : Thread nD τ).loc b) :=
  StableHlo.after hostOps0 (fun b => m (c, b)) b

/-- Every host operation writes into a buffer the program already has: none allocates. -/
theorem hostOps0_fresh : (hostOps0 : List (HloOp τ sig (Elt F))).Forall fun op => op.fresh = ∅ := by
  simp only [List.Forall]; repeat' constructor

/-- The program is its line of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched: each operation's one written buffer is another one. -/
local macro "unwritten " b:ident : tactic => `(tactic|
  exact StableHlo.after_of_forall_not_mem (b := Proc.devRef .tc $b) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide))))

theorem V_main_arg0 (c : Dev nD) : V m c main_arg0 = m ((c : Thread nD τ).loc main_arg0) := by
  unwritten main_arg0
theorem V_main_arg1 (c : Dev nD) : V m c main_arg1 = m ((c : Thread nD τ).loc main_arg1) := by
  unwritten main_arg1
theorem V_main_arg2 (c : Dev nD) : V m c main_arg2 = m ((c : Thread nD τ).loc main_arg2) := by
  unwritten main_arg2
theorem V_main_arg3 (c : Dev nD) : V m c main_arg3 = m ((c : Thread nD τ).loc main_arg3) := by
  unwritten main_arg3
theorem V_main_arg4 (c : Dev nD) : V m c main_arg4 = m ((c : Thread nD τ).loc main_arg4) := by
  unwritten main_arg4
theorem V_main_arg5 (c : Dev nD) : V m c main_arg5 = m ((c : Thread nD τ).loc main_arg5) := by
  unwritten main_arg5
theorem V_main_arg6 (c : Dev nD) : V m c main_arg6 = m ((c : Thread nD τ).loc main_arg6) := by
  unwritten main_arg6
theorem V_main_arg7 (c : Dev nD) : V m c main_arg7 = m ((c : Thread nD τ).loc main_arg7) := by
  unwritten main_arg7
theorem V_main_arg8 (c : Dev nD) : V m c main_arg8 = m ((c : Thread nD τ).loc main_arg8) := by
  unwritten main_arg8
theorem V_main_arg9 (c : Dev nD) : V m c main_arg9 = m ((c : Thread nD τ).loc main_arg9) := by
  unwritten main_arg9
theorem V_main_arg10 (c : Dev nD) : V m c main_arg10 = m ((c : Thread nD τ).loc main_arg10) := by
  unwritten main_arg10
theorem V_main_arg11 (c : Dev nD) : V m c main_arg11 = m ((c : Thread nD τ).loc main_arg11) := by
  unwritten main_arg11
theorem V_main_arg12 (c : Dev nD) : V m c main_arg12 = m ((c : Thread nD τ).loc main_arg12) := by
  unwritten main_arg12
theorem V_main_arg13 (c : Dev nD) : V m c main_arg13 = m ((c : Thread nD τ).loc main_arg13) := by
  unwritten main_arg13
theorem V_main_arg14 (c : Dev nD) : V m c main_arg14 = m ((c : Thread nD τ).loc main_arg14) := by
  unwritten main_arg14
theorem V_main_arg15 (c : Dev nD) : V m c main_arg15 = m ((c : Thread nD τ).loc main_arg15) := by
  unwritten main_arg15
theorem V_main_arg16 (c : Dev nD) : V m c main_arg16 = m ((c : Thread nD τ).loc main_arg16) := by
  unwritten main_arg16
theorem V_main_arg17 (c : Dev nD) : V m c main_arg17 = m ((c : Thread nD τ).loc main_arg17) := by
  unwritten main_arg17
theorem V_main_arg18 (c : Dev nD) : V m c main_arg18 = m ((c : Thread nD τ).loc main_arg18) := by
  unwritten main_arg18
theorem V_main_arg19 (c : Dev nD) : V m c main_arg19 = m ((c : Thread nD τ).loc main_arg19) := by
  unwritten main_arg19
theorem V_main_arg20 (c : Dev nD) : V m c main_arg20 = m ((c : Thread nD τ).loc main_arg20) := by
  unwritten main_arg20

end Cert.Kernel.Entry

end
-- ==== Proof.KBRegion.lean ====
/-
  The kernel region runs to the end and leaves every argument array as it found it.

  At each of the 32 grid points the region hands the body one block of 128 batch rows of each of the two hidden states,
  of the input and of the old cell state, the six host-prepared arrays whole (fetched once, at the first point), and
  two output buffers. The body loads every input whole, computes, and overwrites both output buffers whole; it keeps
  nothing between points. So after the body the buffer of the first output holds the new hidden state of those 128
  rows and the buffer of the second the new cell state, each one function (`out_10`, `out_11`) of the ten input
  blocks, and the inputs' buffers hold what they held. With that as the per-point data the region's launch theorem
  gives the run: every weakly fair execution terminates without a fault, each output array ends as the blocks written
  back, and every other buffer ends as the region found it — in particular all twenty-one argument arrays, which no
  host operation before the region writes either.
-/
import proofs.«145507_j13769665150976_2_alg».proof.Proof.KBEntry
import proofs.«145507_j13769665150976_2_alg».proof.Proof.Gen.Kernel.Skeleton
import proofs.«145507_j13769665150976_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether the block was fetched there or is still
    the one fetched earlier (its index has not moved), provided the body leaves it in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store takes the whole buffer -/

abbrev r_S128x1024 : Rect S128x1024 := Rect.unit (s := S128x1024) ![0, 0] S128x1024.size inb_S128x1024_S128x1024_0_0
abbrev r_S128x512 : Rect S128x512 := Rect.unit (s := S128x512) ![0, 0] S128x512.size inb_S128x512_S128x512_0_0
abbrev r_S4096x1024 : Rect S4096x1024 := Rect.unit (s := S4096x1024) ![0, 0] S4096x1024.size inb_S4096x1024_S4096x1024_0_0
abbrev r_S4096x512 : Rect S4096x512 := Rect.unit (s := S4096x512) ![0, 0] S4096x512.size inb_S4096x512_S4096x512_0_0
abbrev r_S1x4096 : Rect S1x4096 := Rect.unit (s := S1x4096) ![0, 0] S1x4096.size inb_S1x4096_S1x4096_0_0

/-! ## What the body leaves in the two output buffers -/

/-- The first output's buffer after the body: the new hidden state of the point's rows. -/
def out_10 (x0 : Vec F S128x1024 .f32) (x1 : Vec F S128x1024 .f32) (x2 : Vec F S128x512 .f32) (x3 : Vec F S128x1024 .f32) (x4 : Vec F S4096x1024 .bf16) (x5 : Vec F S4096x512 .bf16) (x6 : Vec F S1x4096 .f32) (x7 : Vec F S4096x1024 .bf16) (x8 : Vec F S4096x512 .bf16) (x9 : Vec F S1x4096 .f32) : Vec F S128x1024 .f32 :=
  View.canon [⟨r_S128x1024, k0_pay3 (View.ld x3 r_S128x1024) (k0_pay6 (View.ld x2 r_S128x512) (View.ld x0 r_S128x1024) (View.ld x4 r_S4096x1024) (View.ld x5 r_S4096x512) (View.ld x6 r_S1x4096)) (k0_pay7 (View.ld x2 r_S128x512) (View.ld x0 r_S128x1024) (View.ld x4 r_S4096x1024) (View.ld x5 r_S4096x512) (View.ld x6 r_S1x4096)) (k0_pay8 (View.ld x2 r_S128x512) (View.ld x0 r_S128x1024) (View.ld x4 r_S4096x1024) (View.ld x5 r_S4096x512) (View.ld x6 r_S1x4096)) (k0_pay9 (View.ld x2 r_S128x512) (View.ld x1 r_S128x1024) (View.ld x7 r_S4096x1024) (View.ld x8 r_S4096x512)) (View.ld x9 r_S1x4096)⟩]

/-- The second output's buffer after the body: the new cell state of the point's rows. -/
def out_11 (x0 : Vec F S128x1024 .f32) (x1 : Vec F S128x1024 .f32) (x2 : Vec F S128x512 .f32) (x3 : Vec F S128x1024 .f32) (x4 : Vec F S4096x1024 .bf16) (x5 : Vec F S4096x512 .bf16) (x6 : Vec F S1x4096 .f32) (x7 : Vec F S4096x1024 .bf16) (x8 : Vec F S4096x512 .bf16) (x9 : Vec F S1x4096 .f32) : Vec F S128x1024 .f32 :=
  View.canon [⟨r_S128x1024, k0_pay2 (View.ld x3 r_S128x1024) (k0_pay6 (View.ld x2 r_S128x512) (View.ld x0 r_S128x1024) (View.ld x4 r_S4096x1024) (View.ld x5 r_S4096x512) (View.ld x6 r_S1x4096)) (k0_pay8 (View.ld x2 r_S128x512) (View.ld x0 r_S128x1024) (View.ld x4 r_S4096x1024) (View.ld x5 r_S4096x512) (View.ld x6 r_S1x4096)) (k0_pay9 (View.ld x2 r_S128x512) (View.ld x1 r_S128x1024) (View.ld x7 r_S4096x1024) (View.ld x8 r_S4096x512)) (View.ld x9 r_S1x4096)⟩]

/-- One store through the whole-buffer rectangle covers the buffer. -/
theorem cover_out (p0 : Vec F S128x1024 .f32) (y : S128x1024.Idx) :
    ∃ pc ∈ ([⟨r_S128x1024, p0⟩] : List (View.Piece (Elt F) S128x1024 .f32)), y ∈ pc.1.set :=
  View.cover_of_tiled [⟨r_S128x1024, p0⟩] S128x1024.size (by rfl) y

/-! ## The body's triple -/

set_option maxHeartbeats 4000000 in
/-- The body on whole buffers, the inputs' at contents `xW` and the outputs' at anything, runs to a state holding the
    inputs' as they were and the outputs' at `out_10`, `out_11` of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x512 .f32) (harg3 : arg3.IsWhole) (arg4 : Memref sig .tc .vmem S128x1024 .f32) (harg4 : arg4.IsWhole) (arg5 : Memref sig .tc .vmem S4096x1024 .bf16) (harg5 : arg5.IsWhole) (arg6 : Memref sig .tc .vmem S4096x512 .bf16) (harg6 : arg6.IsWhole) (arg7 : Memref sig .tc .vmem S1x4096 .f32) (harg7 : arg7.IsWhole) (arg8 : Memref sig .tc .vmem S4096x1024 .bf16) (harg8 : arg8.IsWhole) (arg9 : Memref sig .tc .vmem S4096x512 .bf16) (harg9 : arg9.IsWhole) (arg10 : Memref sig .tc .vmem S1x4096 .f32) (harg10 : arg10.IsWhole) (arg11 : Memref sig .tc .vmem S128x1024 .f32) (harg11 : arg11.IsWhole) (arg12 : Memref sig .tc .vmem S128x1024 .f32) (harg12 : arg12.IsWhole)
    (x0 : Vec F S128x1024 .f32) (x1 : Vec F S128x1024 .f32) (x2 : Vec F S128x512 .f32) (x3 : Vec F S128x1024 .f32) (x4 : Vec F S4096x1024 .bf16) (x5 : Vec F S4096x512 .bf16) (x6 : Vec F S1x4096 .f32) (x7 : Vec F S4096x1024 .bf16) (x8 : Vec F S4096x512 .bf16) (x9 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out_10 x0 x1 x2 x3 x4 x5 x6 x7 x8 x9) ∗ owns (c : Thread nD τ) arg12 fullShare (out_11 x0 x1 x2 x3 x4 x5 x6 x7 x8 x9)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover_out _)
  iexists _; isplitr
  swap; · iexact H11
  ipureintro
  try dsimp only
  exact View.read_writes_eq_canon _ _ _ (cover_out _)

/-! ## The per-point data of the region -/

/-- The arrays as the region finds them; after the body at point `t` each input's buffer at its block and each
    output's at `out_10` / `out_11` of the input blocks; the invariant only the untouched rest; full shares, nothing
    owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out_11 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = out_10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_11 (c : Dev nD) (t : Fin cfg0.N) : (dats m 0 c).after 11 t = out_11 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The inputs' buffers hold their blocks, so the body's triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The region's obligation on the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault; each
    array the region stages ends as the per-point data say and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged: the four the region stages by the launch theorem's account of an input array,
    the others because neither the region nor the host operations before it write them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) (run_main m ρ)

end Cert.Kernel.Region

end
-- ==== Proof.KIEntry.lean ====
/-
  The program up to its one kernel region.

  Before the region the host stacks each branch's four gate matrices: the hidden columns (0 … 1023) of the four
  `1024 × 1536` weights into one `4096 × 1024` array and the input columns (1024 … 1535) into one `4096 × 512`
  array, both narrowed to the half-width float format, and the four biases into one row of 4096. `V` is what every
  buffer holds when the region is entered — the launch contents pushed through those host operations — and `hmain`
  says the program is that line of host operations followed by the region. None of the operations writes an
  argument array, so the region finds every argument as it was launched (`V_main_argK`).
-/
import proofs.«145507_j13769665150976_2_alg».proof.Proof.Gen.KernelIdeal.Launch
import Idealize.ShloMosaic.Lib.Pipeline.FrameBody
import Idealize.ShloMosaic.Lib.StableHlo.Run

noncomputable section

namespace Cert.KernelIdeal.Entry

open Cert.KernelIdeal Cert.KernelIdeal.Gen
open Idealize.ShloMosaic Idealize.ShloMosaic.TcCoe
open Idealize.SL Idealize.SL.RA Idealize.SL.BI
open Idealize.SL.Sem

variable {F : FTy → Type} [FloatOps F]

variable (m : (ℓ : Loc nD τ sig) → Buf (Elt F) ℓ)

/-- Core `c`'s buffers when the region is entered: the launch contents after the host operations. -/
abbrev V (c : Dev nD) (b : Ref sig .tc) : Buf (Elt F) ((c : Thread nD τ).loc b) :=
  StableHlo.after hostOps0 (fun b => m (c, b)) b

/-- Every host operation writes into a buffer the program already has: none allocates. -/
theorem hostOps0_fresh : (hostOps0 : List (HloOp τ sig (Elt F))).Forall fun op => op.fresh = ∅ := by
  simp only [List.Forall]; repeat' constructor

/-- The program is its line of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched: each operation's one written buffer is another one. -/
local macro "unwritten " b:ident : tactic => `(tactic|
  exact StableHlo.after_of_forall_not_mem (b := Proc.devRef .tc $b) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide))))

theorem V_main_arg0 (c : Dev nD) : V m c main_arg0 = m ((c : Thread nD τ).loc main_arg0) := by
  unwritten main_arg0
theorem V_main_arg1 (c : Dev nD) : V m c main_arg1 = m ((c : Thread nD τ).loc main_arg1) := by
  unwritten main_arg1
theorem V_main_arg2 (c : Dev nD) : V m c main_arg2 = m ((c : Thread nD τ).loc main_arg2) := by
  unwritten main_arg2
theorem V_main_arg3 (c : Dev nD) : V m c main_arg3 = m ((c : Thread nD τ).loc main_arg3) := by
  unwritten main_arg3
theorem V_main_arg4 (c : Dev nD) : V m c main_arg4 = m ((c : Thread nD τ).loc main_arg4) := by
  unwritten main_arg4
theorem V_main_arg5 (c : Dev nD) : V m c main_arg5 = m ((c : Thread nD τ).loc main_arg5) := by
  unwritten main_arg5
theorem V_main_arg6 (c : Dev nD) : V m c main_arg6 = m ((c : Thread nD τ).loc main_arg6) := by
  unwritten main_arg6
theorem V_main_arg7 (c : Dev nD) : V m c main_arg7 = m ((c : Thread nD τ).loc main_arg7) := by
  unwritten main_arg7
theorem V_main_arg8 (c : Dev nD) : V m c main_arg8 = m ((c : Thread nD τ).loc main_arg8) := by
  unwritten main_arg8
theorem V_main_arg9 (c : Dev nD) : V m c main_arg9 = m ((c : Thread nD τ).loc main_arg9) := by
  unwritten main_arg9
theorem V_main_arg10 (c : Dev nD) : V m c main_arg10 = m ((c : Thread nD τ).loc main_arg10) := by
  unwritten main_arg10
theorem V_main_arg11 (c : Dev nD) : V m c main_arg11 = m ((c : Thread nD τ).loc main_arg11) := by
  unwritten main_arg11
theorem V_main_arg12 (c : Dev nD) : V m c main_arg12 = m ((c : Thread nD τ).loc main_arg12) := by
  unwritten main_arg12
theorem V_main_arg13 (c : Dev nD) : V m c main_arg13 = m ((c : Thread nD τ).loc main_arg13) := by
  unwritten main_arg13
theorem V_main_arg14 (c : Dev nD) : V m c main_arg14 = m ((c : Thread nD τ).loc main_arg14) := by
  unwritten main_arg14
theorem V_main_arg15 (c : Dev nD) : V m c main_arg15 = m ((c : Thread nD τ).loc main_arg15) := by
  unwritten main_arg15
theorem V_main_arg16 (c : Dev nD) : V m c main_arg16 = m ((c : Thread nD τ).loc main_arg16) := by
  unwritten main_arg16
theorem V_main_arg17 (c : Dev nD) : V m c main_arg17 = m ((c : Thread nD τ).loc main_arg17) := by
  unwritten main_arg17
theorem V_main_arg18 (c : Dev nD) : V m c main_arg18 = m ((c : Thread nD τ).loc main_arg18) := by
  unwritten main_arg18
theorem V_main_arg19 (c : Dev nD) : V m c main_arg19 = m ((c : Thread nD τ).loc main_arg19) := by
  unwritten main_arg19
theorem V_main_arg20 (c : Dev nD) : V m c main_arg20 = m ((c : Thread nD τ).loc main_arg20) := by
  unwritten main_arg20

end Cert.KernelIdeal.Entry

end
-- ==== Proof.KIRegion.lean ====
/-
  The kernel region runs to the end and leaves every argument array as it found it.

  At each of the 32 grid points the region hands the body one block of 128 batch rows of each of the two hidden states,
  of the input and of the old cell state, the six host-prepared arrays whole (fetched once, at the first point), and
  two output buffers. The body loads every input whole, computes, and overwrites both output buffers whole; it keeps
  nothing between points. So after the body the buffer of the first output holds the new hidden state of those 128
  rows and the buffer of the second the new cell state, each one function (`out_10`, `out_11`) of the ten input
  blocks, and the inputs' buffers hold what they held. With that as the per-point data the region's launch theorem
  gives the run: every weakly fair execution terminates without a fault, each output array ends as the blocks written
  back, and every other buffer ends as the region found it — in particular all twenty-one argument arrays, which no
  host operation before the region writes either.
-/
import proofs.«145507_j13769665150976_2_alg».proof.Proof.KIEntry
import proofs.«145507_j13769665150976_2_alg».proof.Proof.Gen.KernelIdeal.Skeleton
import proofs.«145507_j13769665150976_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its block at every point, whether the block was fetched there or is still
    the one fetched earlier (its index has not moved), provided the body leaves it in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store takes the whole buffer -/

abbrev r_S128x1024 : Rect S128x1024 := Rect.unit (s := S128x1024) ![0, 0] S128x1024.size inb_S128x1024_S128x1024_0_0
abbrev r_S128x512 : Rect S128x512 := Rect.unit (s := S128x512) ![0, 0] S128x512.size inb_S128x512_S128x512_0_0
abbrev r_S4096x1024 : Rect S4096x1024 := Rect.unit (s := S4096x1024) ![0, 0] S4096x1024.size inb_S4096x1024_S4096x1024_0_0
abbrev r_S4096x512 : Rect S4096x512 := Rect.unit (s := S4096x512) ![0, 0] S4096x512.size inb_S4096x512_S4096x512_0_0
abbrev r_S1x4096 : Rect S1x4096 := Rect.unit (s := S1x4096) ![0, 0] S1x4096.size inb_S1x4096_S1x4096_0_0

/-! ## What the body leaves in the two output buffers -/

/-- The first output's buffer after the body: the new hidden state of the point's rows. -/
def out_10 (x0 : Vec F S128x1024 .f32) (x1 : Vec F S128x1024 .f32) (x2 : Vec F S128x512 .f32) (x3 : Vec F S128x1024 .f32) (x4 : Vec F S4096x1024 .bf16) (x5 : Vec F S4096x512 .bf16) (x6 : Vec F S1x4096 .f32) (x7 : Vec F S4096x1024 .bf16) (x8 : Vec F S4096x512 .bf16) (x9 : Vec F S1x4096 .f32) : Vec F S128x1024 .f32 :=
  View.canon [⟨r_S128x1024, k0_pay3 (View.ld x3 r_S128x1024) (k0_pay6 (View.ld x2 r_S128x512) (View.ld x0 r_S128x1024) (View.ld x4 r_S4096x1024) (View.ld x5 r_S4096x512) (View.ld x6 r_S1x4096)) (k0_pay7 (View.ld x2 r_S128x512) (View.ld x0 r_S128x1024) (View.ld x4 r_S4096x1024) (View.ld x5 r_S4096x512) (View.ld x6 r_S1x4096)) (k0_pay8 (View.ld x2 r_S128x512) (View.ld x0 r_S128x1024) (View.ld x4 r_S4096x1024) (View.ld x5 r_S4096x512) (View.ld x6 r_S1x4096)) (k0_pay9 (View.ld x2 r_S128x512) (View.ld x1 r_S128x1024) (View.ld x7 r_S4096x1024) (View.ld x8 r_S4096x512)) (View.ld x9 r_S1x4096)⟩]

/-- The second output's buffer after the body: the new cell state of the point's rows. -/
def out_11 (x0 : Vec F S128x1024 .f32) (x1 : Vec F S128x1024 .f32) (x2 : Vec F S128x512 .f32) (x3 : Vec F S128x1024 .f32) (x4 : Vec F S4096x1024 .bf16) (x5 : Vec F S4096x512 .bf16) (x6 : Vec F S1x4096 .f32) (x7 : Vec F S4096x1024 .bf16) (x8 : Vec F S4096x512 .bf16) (x9 : Vec F S1x4096 .f32) : Vec F S128x1024 .f32 :=
  View.canon [⟨r_S128x1024, k0_pay2 (View.ld x3 r_S128x1024) (k0_pay6 (View.ld x2 r_S128x512) (View.ld x0 r_S128x1024) (View.ld x4 r_S4096x1024) (View.ld x5 r_S4096x512) (View.ld x6 r_S1x4096)) (k0_pay8 (View.ld x2 r_S128x512) (View.ld x0 r_S128x1024) (View.ld x4 r_S4096x1024) (View.ld x5 r_S4096x512) (View.ld x6 r_S1x4096)) (k0_pay9 (View.ld x2 r_S128x512) (View.ld x1 r_S128x1024) (View.ld x7 r_S4096x1024) (View.ld x8 r_S4096x512)) (View.ld x9 r_S1x4096)⟩]

/-- One store through the whole-buffer rectangle covers the buffer. -/
theorem cover_out (p0 : Vec F S128x1024 .f32) (y : S128x1024.Idx) :
    ∃ pc ∈ ([⟨r_S128x1024, p0⟩] : List (View.Piece (Elt F) S128x1024 .f32)), y ∈ pc.1.set :=
  View.cover_of_tiled [⟨r_S128x1024, p0⟩] S128x1024.size (by rfl) y

/-! ## The body's triple -/

set_option maxHeartbeats 4000000 in
/-- The body on whole buffers, the inputs' at contents `xW` and the outputs' at anything, runs to a state holding the
    inputs' as they were and the outputs' at `out_10`, `out_11` of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x512 .f32) (harg3 : arg3.IsWhole) (arg4 : Memref sig .tc .vmem S128x1024 .f32) (harg4 : arg4.IsWhole) (arg5 : Memref sig .tc .vmem S4096x1024 .bf16) (harg5 : arg5.IsWhole) (arg6 : Memref sig .tc .vmem S4096x512 .bf16) (harg6 : arg6.IsWhole) (arg7 : Memref sig .tc .vmem S1x4096 .f32) (harg7 : arg7.IsWhole) (arg8 : Memref sig .tc .vmem S4096x1024 .bf16) (harg8 : arg8.IsWhole) (arg9 : Memref sig .tc .vmem S4096x512 .bf16) (harg9 : arg9.IsWhole) (arg10 : Memref sig .tc .vmem S1x4096 .f32) (harg10 : arg10.IsWhole) (arg11 : Memref sig .tc .vmem S128x1024 .f32) (harg11 : arg11.IsWhole) (arg12 : Memref sig .tc .vmem S128x1024 .f32) (harg12 : arg12.IsWhole)
    (x0 : Vec F S128x1024 .f32) (x1 : Vec F S128x1024 .f32) (x2 : Vec F S128x512 .f32) (x3 : Vec F S128x1024 .f32) (x4 : Vec F S4096x1024 .bf16) (x5 : Vec F S4096x512 .bf16) (x6 : Vec F S1x4096 .f32) (x7 : Vec F S4096x1024 .bf16) (x8 : Vec F S4096x512 .bf16) (x9 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out_10 x0 x1 x2 x3 x4 x5 x6 x7 x8 x9) ∗ owns (c : Thread nD τ) arg12 fullShare (out_11 x0 x1 x2 x3 x4 x5 x6 x7 x8 x9)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover_out _)
  iexists _; isplitr
  swap; · iexact H11
  ipureintro
  try dsimp only
  exact View.read_writes_eq_canon _ _ _ (cover_out _)

/-! ## The per-point data of the region -/

/-- The arrays as the region finds them; after the body at point `t` each input's buffer at its block and each
    output's at `out_10` / `out_11` of the input blocks; the invariant only the untouched rest; full shares, nothing
    owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out_11 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = out_10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_11 (c : Dev nD) (t : Fin cfg0.N) : (dats m 0 c).after 11 t = out_11 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The inputs' buffers hold their blocks, so the body's triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The region's obligation on the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault; each
    array the region stages ends as the per-point data say and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged: the four the region stages by the launch theorem's account of an input array,
    the others because neither the region nor the host operations before it write them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) (run_main m ρ)

end Cert.KernelIdeal.Region

end
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.KIBlock.lean ====
/-
  What the body computes for one block of 128 batch rows, entry by entry, on the extended reals.

  The body holds, for the point's rows, the two hidden-state blocks `h₁`, `h₂` (128 × 1024), the input block `y`
  (128 × 512) and the old cell state `c` (128 × 1024), and whole: per branch the stacked hidden weights
  (4096 × 1024), the stacked input weights (4096 × 512) and the stacked bias row (1 × 4096). Row `p` and stacked
  column `j` of a branch's pre-activations is

      z p j = (Σ_{k<1024} h (p,k) · Wh (j,k) + Σ_{k<512} y (p,k) · Wy (j,k)) + b (0,j):

  each matrix product contracts the LAST axis of both operands, the narrowing of the operands to the half-width format
  is the identity on the extended reals, and the bias row is repeated down the 128 rows. The four gates of unit `q`
  are the stacked columns `q`, `1024+q`, `2048+q`, `3072+q`. The second output is

      c' (p,q) = (σ z₁(q) + σ z₂(q)) · c (p,q) + (σ z₁(1024+q) · tanh z₁(2048+q) + σ z₂(1024+q) · tanh z₂(2048+q))

  and the first is `h' (p,q) = (σ z₁(3072+q) + σ z₂(3072+q)) · tanh c' (p,q)`.
-/
import proofs.«145507_j13769665150976_2_alg».proof.Proof.KIRegion
import proofs.«145507_j13769665150976_2_alg».proof.Proof.LibTransposedRhsDot
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Cert.KernelIdeal.Region
open Idealize.ShloMosaic Idealize.ShloMosaic.ValueIdx

/-- A block's pre-activation at row `p`, stacked column `j`. -/
def zrow (h : S128x1024.Idx → EReal) (y : S128x512.Idx → EReal) (Wh : S4096x1024.Idx → EReal) (Wy : S4096x512.Idx → EReal)
    (b : S1x4096.Idx → EReal) (p : Fin 128) (j : Fin 4096) : EReal :=
  (∑ k : Fin 1024, h (ix2 p k) * Wh (ix2 j k) + ∑ k : Fin 512, y (ix2 p k) * Wy (ix2 j k)) + b (ix2 (0 : Fin 1) j)

/-- Stacked column `g · 1024 + q`. -/
abbrev col (g : Fin 4) (q : Fin 1024) : Fin 4096 := ⟨g.val * 1024 + q.val, by omega⟩

theorem hz : (![0, 0] : Fin 2 → Nat) = fun _ => 0 := funext fun a => by fin_cases a <;> rfl

/-- The bias row repeated down the rows, at `(p, j)`, is the row's entry `j`. -/
theorem bias_apply (v : FVec Ideal S1x4096 .f32) (p : Fin 128) (j : Fin 4096) :
    broadcastTo S128x4096 (shapeCast S1x4096 v shapeCasts_S1x4096_S1x4096) broadcasts_S1x4096_S128x4096 (ix2 p j)
      = v (ix2 (0 : Fin 1) j) := by
  rw [shapeCast_self]
  refine broadcastTo_apply _ _ _ (ix2 (0 : Fin 1) j) (fun a => ?_)
  match a with
  | ⟨0, _⟩ => rfl
  | ⟨1, _⟩ => rfl

/-- The hidden-part product at `(p, j)`. -/
theorem dotH_apply (l : FVec Ideal S128x1024 .bf16) (r : FVec Ideal S4096x1024 .bf16) (p : Fin 128) (j : Fin 4096) :
    matmul dot_S128x1024_S4096x1024_S128x4096_1_1_0_0_n_n none l r (constant S128x4096 .f32 0x00000000#32) (ix2 p j)
      = ∑ k : Fin 1024, l (ix2 p k) * r (ix2 j k) :=
  Cert.LibTransposedRhsDot.matmul_zero_apply (M := 128) (K := 1024) (N := 4096) none l r p j

/-- The input-part product at `(p, j)`. -/
theorem dotY_apply (l : FVec Ideal S128x512 .bf16) (r : FVec Ideal S4096x512 .bf16) (p : Fin 128) (j : Fin 4096) :
    matmul dot_S128x512_S4096x512_S128x4096_1_1_0_0_n_n none l r (constant S128x4096 .f32 0x00000000#32) (ix2 p j)
      = ∑ k : Fin 512, l (ix2 p k) * r (ix2 j k) :=
  Cert.LibTransposedRhsDot.matmul_zero_apply (M := 128) (K := 512) (N := 4096) none l r p j

/-- The first branch's pre-activations (with the bias) at `(p, j)`. -/
theorem pay5_apply (v0 : Vec Ideal S128x512 .f32) (v3 : Vec Ideal S128x1024 .f32) (v5 : Vec Ideal S4096x1024 .bf16)
    (v8 : Vec Ideal S4096x512 .bf16) (v12 : Vec Ideal S1x4096 .f32) (p : Fin 128) (j : Fin 4096) :
    k0_pay5 (F := Ideal) v0 v3 v5 v8 v12 (ix2 p j) = zrow v3 v0 v5 v8 v12 p j := by
  unfold k0_pay5 k0_pay4 zrow
  rw [addf_apply, addf_apply, bias_apply, dotH_apply, dotY_apply, shapeCast_self, shapeCast_self]
  rfl

/-- The second branch's products (before the bias) at `(p, j)`. -/
theorem pay9_apply (v0 : Vec Ideal S128x512 .f32) (v25 : Vec Ideal S128x1024 .f32) (v27 : Vec Ideal S4096x1024 .bf16)
    (v30 : Vec Ideal S4096x512 .bf16) (p : Fin 128) (j : Fin 4096) :
    k0_pay9 (F := Ideal) v0 v25 v27 v30 (ix2 p j)
      = ∑ k : Fin 1024, v25 (ix2 p k) * v27 (ix2 j k) + ∑ k : Fin 512, v0 (ix2 p k) * v30 (ix2 j k) := by
  unfold k0_pay9 k0_pay4
  rw [addf_apply, dotH_apply, dotY_apply, shapeCast_self, shapeCast_self]
  rfl

/-- The second branch's pre-activations at `(p, j)`. -/
theorem pay1_apply (v0 : Vec Ideal S128x512 .f32) (v25 : Vec Ideal S128x1024 .f32) (v27 : Vec Ideal S4096x1024 .bf16)
    (v30 : Vec Ideal S4096x512 .bf16) (v34 : Vec Ideal S1x4096 .f32) (p : Fin 128) (j : Fin 4096) :
    k0_pay1 (F := Ideal) (k0_pay9 v0 v25 v27 v30) v34 (ix2 p j) = zrow v25 v0 v27 v30 v34 p j := by
  unfold k0_pay1 zrow
  rw [addf_apply, bias_apply, pay9_apply]

/-- The logistic function and the hyperbolic tangent act entry by entry. -/
theorem logistic_apply {s : Shape} {φ : FTy} (v : FVec Ideal s φ) (i : s.Idx) : logistic v i = Ideal.logistic (v i) := rfl
theorem tanh_apply {s : Shape} {φ : FTy} (v : FVec Ideal s φ) (i : s.Idx) : tanh v i = Ideal.tanh (v i) := rfl

/-- The four column groups of the 128 × 4096 pre-activations: group `g` at `(p, q)` is stacked column `g · 1024 + q`. -/
theorem group0 (x : FVec Ideal S128x4096 .f32) (p : Fin 128) (q : Fin 1024) :
    extractStridedSlice S128x1024 ![0, 0] x slices_S128x4096_o0_0_S128x1024 (ix2 p q) = x (ix2 p (col 0 q)) := by
  refine extractStridedSlice_apply _ _ _ _ (ix2 p (col 0 q)) (fun a => ?_)
  match a with
  | ⟨0, _⟩ => show p.val = 0 + p.val; omega
  | ⟨1, _⟩ => show (0 : Fin 4).val * 1024 + q.val = 0 + q.val; simp
theorem group1 (x : FVec Ideal S128x4096 .f32) (p : Fin 128) (q : Fin 1024) :
    extractStridedSlice S128x1024 ![0, 1024] x slices_S128x4096_o0_1024_S128x1024 (ix2 p q) = x (ix2 p (col 1 q)) := by
  refine extractStridedSlice_apply _ _ _ _ (ix2 p (col 1 q)) (fun a => ?_)
  match a with
  | ⟨0, _⟩ => show p.val = 0 + p.val; omega
  | ⟨1, _⟩ => show (1 : Fin 4).val * 1024 + q.val = 1024 + q.val; simp
theorem group2 (x : FVec Ideal S128x4096 .f32) (p : Fin 128) (q : Fin 1024) :
    extractStridedSlice S128x1024 ![0, 2048] x slices_S128x4096_o0_2048_S128x1024 (ix2 p q) = x (ix2 p (col 2 q)) := by
  refine extractStridedSlice_apply _ _ _ _ (ix2 p (col 2 q)) (fun a => ?_)
  match a with
  | ⟨0, _⟩ => show p.val = 0 + p.val; omega
  | ⟨1, _⟩ => show (2 : Fin 4).val * 1024 + q.val = 2048 + q.val; simp
theorem group3 (x : FVec Ideal S128x4096 .f32) (p : Fin 128) (q : Fin 1024) :
    extractStridedSlice S128x1024 ![0, 3072] x slices_S128x4096_o0_3072_S128x1024 (ix2 p q) = x (ix2 p (col 3 q)) := by
  refine extractStridedSlice_apply _ _ _ _ (ix2 p (col 3 q)) (fun a => ?_)
  match a with
  | ⟨0, _⟩ => show p.val = 0 + p.val; omega
  | ⟨1, _⟩ => show (3 : Fin 4).val * 1024 + q.val = 3072 + q.val; simp

/-- The new cell state of the block at `(p, q)`. -/
def cBlk (h₁ h₂ : S128x1024.Idx → EReal) (y : S128x512.Idx → EReal) (c : S128x1024.Idx → EReal)
    (Wh₁ : S4096x1024.Idx → EReal) (Wy₁ : S4096x512.Idx → EReal) (b₁ : S1x4096.Idx → EReal)
    (Wh₂ : S4096x1024.Idx → EReal) (Wy₂ : S4096x512.Idx → EReal) (b₂ : S1x4096.Idx → EReal) (p : Fin 128) (q : Fin 1024) : EReal :=
  (Ideal.logistic (zrow h₁ y Wh₁ Wy₁ b₁ p (col 0 q)) + Ideal.logistic (zrow h₂ y Wh₂ Wy₂ b₂ p (col 0 q))) * c (ix2 p q)
    + (Ideal.logistic (zrow h₁ y Wh₁ Wy₁ b₁ p (col 1 q)) * Ideal.tanh (zrow h₁ y Wh₁ Wy₁ b₁ p (col 2 q))
        + Ideal.logistic (zrow h₂ y Wh₂ Wy₂ b₂ p (col 1 q)) * Ideal.tanh (zrow h₂ y Wh₂ Wy₂ b₂ p (col 2 q)))

/-- The new hidden state of the block at `(p, q)`. -/
def hBlk (h₁ h₂ : S128x1024.Idx → EReal) (y : S128x512.Idx → EReal) (c : S128x1024.Idx → EReal)
    (Wh₁ : S4096x1024.Idx → EReal) (Wy₁ : S4096x512.Idx → EReal) (b₁ : S1x4096.Idx → EReal)
    (Wh₂ : S4096x1024.Idx → EReal) (Wy₂ : S4096x512.Idx → EReal) (b₂ : S1x4096.Idx → EReal) (p : Fin 128) (q : Fin 1024) : EReal :=
  (Ideal.logistic (zrow h₁ y Wh₁ Wy₁ b₁ p (col 3 q)) + Ideal.logistic (zrow h₂ y Wh₂ Wy₂ b₂ p (col 3 q)))
    * Ideal.tanh (cBlk h₁ h₂ y c Wh₁ Wy₁ b₁ Wh₂ Wy₂ b₂ p q)

section
variable (x0 : Vec Ideal S128x1024 .f32) (x1 : Vec Ideal S128x1024 .f32) (x2 : Vec Ideal S128x512 .f32) (x3 : Vec Ideal S128x1024 .f32)
  (x4 : Vec Ideal S4096x1024 .bf16) (x5 : Vec Ideal S4096x512 .bf16) (x6 : Vec Ideal S1x4096 .f32)
  (x7 : Vec Ideal S4096x1024 .bf16) (x8 : Vec Ideal S4096x512 .bf16) (x9 : Vec Ideal S1x4096 .f32)

/-- The payload stored into the second output, at `(p, q`): the block's new cell state. -/
theorem pay2_apply (p : Fin 128) (q : Fin 1024) :
    k0_pay2 (F := Ideal) x3 (k0_pay6 x2 x0 x4 x5 x6) (k0_pay8 x2 x0 x4 x5 x6) (k0_pay9 x2 x1 x7 x8) x9 (ix2 p q)
      = cBlk x0 x1 x2 x3 x4 x5 x6 x7 x8 x9 p q := by
  unfold k0_pay2 k0_pay6 k0_pay8 cBlk
  simp only [addf_apply, mulf_apply, logistic_apply, tanh_apply, group0, group1, group2, pay5_apply, pay1_apply]

/-- The payload stored into the first output, at `(p, q)`: the block's new hidden state. -/
theorem pay3_apply (p : Fin 128) (q : Fin 1024) :
    k0_pay3 (F := Ideal) x3 (k0_pay6 x2 x0 x4 x5 x6) (k0_pay7 x2 x0 x4 x5 x6) (k0_pay8 x2 x0 x4 x5 x6) (k0_pay9 x2 x1 x7 x8) x9 (ix2 p q)
      = hBlk x0 x1 x2 x3 x4 x5 x6 x7 x8 x9 p q := by
  unfold k0_pay3 k0_pay7 hBlk
  simp only [addf_apply, mulf_apply, logistic_apply, tanh_apply, group3, pay5_apply, pay1_apply, pay2_apply]

/-- The two output buffers after the body, entry by entry. -/
theorem out_11_apply (p : Fin 128) (q : Fin 1024) :
    out_11 (F := Ideal) x0 x1 x2 x3 x4 x5 x6 x7 x8 x9 (ix2 p q) = cBlk x0 x1 x2 x3 x4 x5 x6 x7 x8 x9 p q := by
  unfold out_11
  rw [View.canon_unit_zero hz]
  simp only [View.ld_unit_zero (S := S128x1024) hz, View.ld_unit_zero (S := S128x512) hz, View.ld_unit_zero (S := S4096x1024) hz,
    View.ld_unit_zero (S := S4096x512) hz, View.ld_unit_zero (S := S1x4096) hz]
  exact pay2_apply x0 x1 x2 x3 x4 x5 x6 x7 x8 x9 p q

theorem out_10_apply (p : Fin 128) (q : Fin 1024) :
    out_10 (F := Ideal) x0 x1 x2 x3 x4 x5 x6 x7 x8 x9 (ix2 p q) = hBlk x0 x1 x2 x3 x4 x5 x6 x7 x8 x9 p q := by
  unfold out_10
  rw [View.canon_unit_zero hz]
  simp only [View.ld_unit_zero (S := S128x1024) hz, View.ld_unit_zero (S := S128x512) hz, View.ld_unit_zero (S := S4096x1024) hz,
    View.ld_unit_zero (S := S4096x512) hz, View.ld_unit_zero (S := S1x4096) hz]
  exact pay3_apply x0 x1 x2 x3 x4 x5 x6 x7 x8 x9 p q

end

end Cert.KernelIdeal.Block

end
-- ==== Proof.LibStack4.lean ====
/-
  Four arrays of one shape stacked along an axis, read at one index.

  Laid end to end along axis `a`, four pieces `x₀ x₁ x₂ x₃` of one shape `s` make an array whose extent on `a` is
  four times that of `s`. The element at an index `j` whose axis coordinate is `g · (extent of s on a) + r`, with
  `g < 4` and `r` below the extent, is the element of piece `g` at the index that has `r` on the axis and `j`'s
  coordinates everywhere else. `concatenate4_apply` says so for any shapes and any axis; `stack4_mat_apply` and
  `stack4_vec_apply` are the two cases met most, matrices stacked by rows and vectors laid end to end, with the
  indices written by their coordinates. The family of the four pieces is the vector `![x₀, x₁, x₂, x₃]`, so at a
  literal `g` the right-hand side computes to the named piece.
-/
import Idealize.ShloMosaic.Lib.Pipeline.Value
import Idealize.ShloMosaic.Lib.ValueIdx

noncomputable section

namespace Cert.LibStack4

open Idealize.ShloMosaic Idealize.ShloMosaic.ValueIdx

variable {α : Type}

/-- Four pieces of one shape `s` along axis `a`: at an index whose axis coordinate is `g` extents plus `i`'s, and whose
    other coordinates are `i`'s, the stack reads piece `g` at `i`. -/
theorem concatenate4_apply {t s : Shape} (a : Fin t.rank) (x0 x1 x2 x3 : s.Idx → α)
    (h : Shape.Concatenates [s, s, s, s] t a) (hr : s.rank = t.rank) (j : t.Idx) (g : Fin 4) (i : s.Idx)
    (hi : ∀ b : Fin s.rank, b.cast hr ≠ a → (i b).val = (j (b.cast hr)).val)
    (ha : g.val * s.size (a.cast hr.symm) + (i (a.cast hr.symm)).val = (j a).val) :
    concatenate t a [⟨s, x0⟩, ⟨s, x1⟩, ⟨s, x2⟩, ⟨s, x3⟩] h j = (![x0, x1, x2, x3] : Fin 4 → s.Idx → α) g i := by
  match g, ha with
  | ⟨0, _⟩, ha =>
    exact concatenate_apply_piece a [⟨s, x0⟩, ⟨s, x1⟩, ⟨s, x2⟩, ⟨s, x3⟩] h j 0 (by simp) s x0 rfl hr 0 (by simp) i hi (by simpa using ha)
  | ⟨1, _⟩, ha =>
    exact concatenate_apply_piece a [⟨s, x0⟩, ⟨s, x1⟩, ⟨s, x2⟩, ⟨s, x3⟩] h j 1 (by simp) s x1 rfl hr (s.size (a.cast hr.symm)) (by simp [dif_pos hr]) i hi
      (by simpa using ha)
  | ⟨2, _⟩, ha =>
    exact concatenate_apply_piece a [⟨s, x0⟩, ⟨s, x1⟩, ⟨s, x2⟩, ⟨s, x3⟩] h j 2 (by simp) s x2 rfl hr (2 * s.size (a.cast hr.symm)) (by simp [dif_pos hr]; omega) i hi
      (by simpa using ha)
  | ⟨3, _⟩, ha =>
    exact concatenate_apply_piece a [⟨s, x0⟩, ⟨s, x1⟩, ⟨s, x2⟩, ⟨s, x3⟩] h j 3 (by simp) s x3 rfl hr (3 * s.size (a.cast hr.symm)) (by simp [dif_pos hr]; omega) i hi
      (by simpa using ha)

/-- Four `a × b` matrices stacked by rows into an `A × b` one: row `g · a + n` of the stack is row `n` of matrix `g`. -/
theorem stack4_mat_apply {A a b : Nat} (x0 x1 x2 x3 : (⟨2, ![a, b]⟩ : Shape).Idx → α)
    (h : Shape.Concatenates [⟨2, ![a, b]⟩, ⟨2, ![a, b]⟩, ⟨2, ![a, b]⟩, ⟨2, ![a, b]⟩] (⟨2, ![A, b]⟩ : Shape) 0)
    (j : Fin A) (k : Fin b) (g : Fin 4) (n : Fin a) (hj : j.val = g.val * a + n.val) :
    concatenate (⟨2, ![A, b]⟩ : Shape) 0
        [⟨⟨2, ![a, b]⟩, x0⟩, ⟨⟨2, ![a, b]⟩, x1⟩, ⟨⟨2, ![a, b]⟩, x2⟩, ⟨⟨2, ![a, b]⟩, x3⟩] h (ix2 j k)
      = (![x0, x1, x2, x3] : Fin 4 → (⟨2, ![a, b]⟩ : Shape).Idx → α) g (ix2 n k) := by
  refine concatenate4_apply (t := ⟨2, ![A, b]⟩) (s := ⟨2, ![a, b]⟩) 0 x0 x1 x2 x3 h rfl (ix2 j k) g (ix2 n k) ?_ ?_
  · intro c hc
    match c, hc with
    | ⟨0, _⟩, hc => exact absurd rfl hc
    | ⟨1, _⟩, _ => rfl
  · show g.val * a + n.val = j.val
    omega

/-- Four vectors of length `a` laid end to end into one of length `A`: entry `g · a + n` is entry `n` of vector `g`. -/
theorem stack4_vec_apply {A a : Nat} (x0 x1 x2 x3 : (⟨1, ![a]⟩ : Shape).Idx → α)
    (h : Shape.Concatenates [⟨1, ![a]⟩, ⟨1, ![a]⟩, ⟨1, ![a]⟩, ⟨1, ![a]⟩] (⟨1, ![A]⟩ : Shape) 0)
    (j : Fin A) (g : Fin 4) (n : Fin a) (hj : j.val = g.val * a + n.val) :
    concatenate (⟨1, ![A]⟩ : Shape) 0 [⟨⟨1, ![a]⟩, x0⟩, ⟨⟨1, ![a]⟩, x1⟩, ⟨⟨1, ![a]⟩, x2⟩, ⟨⟨1, ![a]⟩, x3⟩] h (ix1 j)
      = (![x0, x1, x2, x3] : Fin 4 → (⟨1, ![a]⟩ : Shape).Idx → α) g (ix1 n) := by
  refine concatenate4_apply (t := ⟨1, ![A]⟩) (s := ⟨1, ![a]⟩) 0 x0 x1 x2 x3 h rfl (ix1 j) g (ix1 n) ?_ ?_
  · intro c hc
    match c, hc with
    | ⟨0, _⟩, hc => exact absurd rfl hc
  · show g.val * a + n.val = j.val
    omega

end Cert.LibStack4

end
-- ==== Proof.LibCellFacts.lean ====
/-
  Three facts about gated mixtures on the extended reals, for cells built from the logistic function and the
  hyperbolic tangent (gated recurrent and long short-term memory cells, gated linear units).

  * `logistic_real`: the exact instance's logistic function `1 / (1 + e^(−y))` takes a nonnegative REAL value at
    every extended real `y` (0 at −∞, 1 at +∞).
  * `tanh_real`: its hyperbolic tangent takes a real value at every extended real (−1 at −∞, 1 at +∞).
  * `mix_eq`: for a real `t`, a nonnegative real `z` and ANY extended real `v`,
    `t + z·(v − t) = (1 − z)·t + z·v`: at an infinite `v` both sides are that infinity when `z > 0` and `t` when
    `z = 0`. So the two usual spellings of a gate's mixture agree with no finiteness hypothesis on the mixed value.
-/
import Idealize.ShloMosaic.PureOps.Ideal

noncomputable section

namespace Cert.LibCellFacts

open Idealize.ShloMosaic

/-- The logistic function takes a nonnegative real value at every extended real. -/
theorem logistic_real (y : EReal) : ∃ z : ℝ, 0 ≤ z ∧ Ideal.logistic y = (z : EReal) := by
  induction y using EReal.rec with
  | bot => exact ⟨0, le_rfl, by rw [Ideal.logistic_bot, EReal.coe_zero]⟩
  | coe r => exact ⟨(1 + Real.exp (-r))⁻¹, inv_nonneg.2 (by positivity), Ideal.logistic_coe r⟩
  | top => exact ⟨1, zero_le_one, by rw [Ideal.logistic_top, EReal.coe_one]⟩

/-- The hyperbolic tangent takes a real value at every extended real. -/
theorem tanh_real (y : EReal) : ∃ t : ℝ, Ideal.tanh y = (t : EReal) := by
  induction y using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- The two spellings of the update gate's mixture agree for a real candidate, a nonnegative real gate and any
    old state: at an infinite old state both sides are that infinity when the gate is positive and the candidate
    when the gate is zero. -/
theorem mix_eq (t z : ℝ) (hz : 0 ≤ z) (v : EReal) :
    (t : EReal) + (z : EReal) * (v - (t : EReal)) = (1 - (z : EReal)) * (t : EReal) + (z : EReal) * v := by
  have h1 : (1 - (z : EReal)) * (t : EReal) = (((1 - z) * t : ℝ) : EReal) := by
    rw [← EReal.coe_one, ← EReal.coe_sub, ← EReal.coe_mul]
  rw [h1]
  induction v using EReal.rec with
  | bot =>
    rcases hz.eq_or_lt with h0 | hpos
    · subst h0
      simp
    · rw [EReal.bot_sub, EReal.coe_mul_bot_of_pos hpos, EReal.add_bot, EReal.add_bot]
  | coe r =>
    rw [← EReal.coe_sub, ← EReal.coe_mul, ← EReal.coe_add, ← EReal.coe_mul, ← EReal.coe_add]
    exact congrArg _ (by ring)
  | top =>
    rcases hz.eq_or_lt with h0 | hpos
    · subst h0
      simp
    · rw [EReal.top_sub_coe, EReal.coe_mul_top_of_pos hpos, EReal.coe_add_top, EReal.coe_add_top]

end Cert.LibCellFacts

end
-- ==== Proof.Spec.lean ====
/-
  The dual-branch gated cell, entry by entry, on the extended reals.

  Two branches share the input `y` and the old cell state `c`; branch one reads the hidden state `h₁`, branch two
  `h₂`. Each branch has four gates (forget, input, candidate, output), gate `g` with a weight matrix
  `W g : 1024 × 1536` and a bias `b g : 1024`. The pre-activation of gate `g` at batch row `r` and unit `n` is

      z g r n = (Σ_{k<1024} h (r,k) · W g (n,k)  +  Σ_{k<512} y (r,k) · W g (n,1024+k))  +  b g n,

  the hidden part and the input part of the row `[h | y]` against row `n` of `W g`. The new cell state and the
  new hidden state are

      c' = (σ z₁⁰ + σ z₂⁰) · c + (σ z₁¹ · tanh z₁² + σ z₂¹ · tanh z₂²),     h' = (σ z₁³ + σ z₂³) · tanh c'.

  Two laws relate this arrangement to the other usual one: a sum over the 1536 columns of `[h | y]` splits into its
  first 1024 and last 512 terms (addition of extended reals is associative and commutative), and
  `(a + b) · c = a · c + b · c` for NONNEGATIVE `a`, `b` and any extended real `c` — the logistic function is
  nonnegative everywhere, so no finiteness of `c` is needed.
-/
import Idealize.ShloMosaic.PureOps.Ideal
import Idealize.ShloMosaic.Lib.ValueIdx
import proofs.«145507_j13769665150976_2_alg».proof.Proof.LibCellFacts

noncomputable section

open scoped BigOperators

namespace Cert.DualCell

open Idealize.ShloMosaic Idealize.ShloMosaic.ValueIdx

/-- An `a × b` matrix of extended reals, by its two-coordinate index. -/
abbrev Mat (a b : ℕ) : Type := (⟨2, ![a, b]⟩ : Shape).Idx → EReal
/-- A vector of `a` extended reals. -/
abbrev Row (a : ℕ) : Type := (⟨1, ![a]⟩ : Shape).Idx → EReal

/-- Column `k` of the hidden part of a weight row. -/
abbrev colH (k : Fin 1024) : Fin 1536 := ⟨k.val, by omega⟩
/-- Column `1024 + k` of a weight row: its input part. -/
abbrev colY (k : Fin 512) : Fin 1536 := ⟨1024 + k.val, by omega⟩

/-- The pre-activation of one gate: hidden part plus input part, plus the bias. -/
def pre (h : Mat 4096 1024) (y : Mat 4096 512) (W : Mat 1024 1536) (b : Row 1024) (r : Fin 4096) (n : Fin 1024) : EReal :=
  (∑ k : Fin 1024, h (ix2 r k) * W (ix2 n (colH k)) + ∑ k : Fin 512, y (ix2 r k) * W (ix2 n (colY k))) + b (ix1 n)

/-- The new cell state at `(r, n)`. -/
def cNew (W₁ W₂ : Fin 4 → Mat 1024 1536) (b₁ b₂ : Fin 4 → Row 1024) (h₁ h₂ : Mat 4096 1024) (y : Mat 4096 512)
    (c : Mat 4096 1024) (r : Fin 4096) (n : Fin 1024) : EReal :=
  (Ideal.logistic (pre h₁ y (W₁ 0) (b₁ 0) r n) + Ideal.logistic (pre h₂ y (W₂ 0) (b₂ 0) r n)) * c (ix2 r n)
    + (Ideal.logistic (pre h₁ y (W₁ 1) (b₁ 1) r n) * Ideal.tanh (pre h₁ y (W₁ 2) (b₁ 2) r n)
        + Ideal.logistic (pre h₂ y (W₂ 1) (b₂ 1) r n) * Ideal.tanh (pre h₂ y (W₂ 2) (b₂ 2) r n))

/-- The new hidden state at `(r, n)`. -/
def hNew (W₁ W₂ : Fin 4 → Mat 1024 1536) (b₁ b₂ : Fin 4 → Row 1024) (h₁ h₂ : Mat 4096 1024) (y : Mat 4096 512)
    (c : Mat 4096 1024) (r : Fin 4096) (n : Fin 1024) : EReal :=
  (Ideal.logistic (pre h₁ y (W₁ 3) (b₁ 3) r n) + Ideal.logistic (pre h₂ y (W₂ 3) (b₂ 3) r n))
    * Ideal.tanh (cNew W₁ W₂ b₁ b₂ h₁ h₂ y c r n)

/-- The new cell state as a whole array. -/
def cArr (W₁ W₂ : Fin 4 → Mat 1024 1536) (b₁ b₂ : Fin 4 → Row 1024) (h₁ h₂ : Mat 4096 1024) (y : Mat 4096 512)
    (c : Mat 4096 1024) : Mat 4096 1024 := fun i => cNew W₁ W₂ b₁ b₂ h₁ h₂ y c (i 0) (i 1)

/-- The new hidden state as a whole array. -/
def hArr (W₁ W₂ : Fin 4 → Mat 1024 1536) (b₁ b₂ : Fin 4 → Row 1024) (h₁ h₂ : Mat 4096 1024) (y : Mat 4096 512)
    (c : Mat 4096 1024) : Mat 4096 1024 := fun i => hNew W₁ W₂ b₁ b₂ h₁ h₂ y c (i 0) (i 1)

/-- A sum over the 1536 columns is the sum over the first 1024 plus the sum over the last 512. -/
theorem sum_cols (f : Fin 1536 → EReal) :
    ∑ k : Fin 1536, f k = ∑ k : Fin 1024, f (colH k) + ∑ k : Fin 512, f (colY k) := by
  have h := Fin.sum_univ_add (a := 1024) (b := 512) (fun i : Fin (1024 + 512) => f ⟨i.val, i.isLt⟩)
  refine Eq.trans ?_ (h.trans ?_)
  · rfl
  · rfl

/-- The logistic function is nonnegative at every extended real. -/
theorem logistic_nonneg (x : EReal) : 0 ≤ Ideal.logistic x := by
  obtain ⟨z, hz, e⟩ := Cert.LibCellFacts.logistic_real x
  rw [e]; exact_mod_cast hz

/-- Gating one state by two nonnegative gates and adding the two candidates, or gating and adding branch by branch. -/
theorem gate_law {a b : EReal} (ha : 0 ≤ a) (hb : 0 ≤ b) (c p q : EReal) :
    (a + b) * c + (p + q) = (a * c + p) + (b * c + q) := by
  rw [EReal.right_distrib_of_nonneg ha hb, add_add_add_comm]

end Cert.DualCell

end
-- ==== Proof.KIHost.lean ====
/-
  The six arrays the host prepares before the region, read entry by entry.

  Each branch of the cell has four gates, gate `g` with a weight matrix of 1024 rows and 1536 columns (the first
  1024 columns meet the hidden state, the last 512 the input) and a bias of 1024 entries. Before the region the
  host cuts every weight into its hidden columns and its input columns, stacks the four hidden parts by rows into one
  `4096 × 1024` array and the four input parts into one `4096 × 512` array, narrows both to the half-width float
  format — at the ideal instance a format change leaves every entry as it is — and lays the four biases end to end
  into one row of 4096. So, writing a row of the stack as `j = g · 1024 + n` with `g < 4` and `n < 1024`:

      hidden stack (j, k)  =  W g (n, k)            for k < 1024,
      input  stack (j, k)  =  W g (n, 1024 + k)     for k < 512,
      bias row     (0, j)  =  b g n,

  where `W g` and `b g` are the LAUNCH contents of gate `g`'s weight and bias arguments. The two branches are the
  same computation over different arguments; `W₁ b₁` name the first branch's four weights and biases, `W₂ b₂` the
  second's.

  The file has two layers. The first is about arrays alone: the stacked-and-cut term at an index, for any four
  matrices (`hiddenStack_apply`, `inputStack_apply`) or four vectors (`biasRow_apply`). The second says that what
  each of the six buffers holds when the region is entered is that term over the launch contents (`v5_term` …),
  and puts the two together (`v5_apply` … `v27_apply`).
-/
import proofs.«145507_j13769665150976_2_alg».proof.Proof.KIEntry
import proofs.«145507_j13769665150976_2_alg».proof.Proof.LibStack4
import proofs.«145507_j13769665150976_2_alg».proof.Proof.Spec
import Idealize.ShloMosaic.Lib.Pipeline.Value
import Idealize.ShloMosaic.Lib.ValueIdx

noncomputable section

namespace Cert.KernelIdeal.HostArrays

open Cert.KernelIdeal Cert.KernelIdeal.Gen Cert.KernelIdeal.Entry
open Idealize.ShloMosaic Idealize.ShloMosaic.TcCoe Idealize.ShloMosaic.ValueIdx
open Idealize.SL Idealize.SL.RA Idealize.SL.BI
open Idealize.SL.Sem
open Cert.LibStack4
open Cert.DualCell (Mat Row colH colY)

/-! ## Arrays alone -/

/-- Applying one function to each of four things and then choosing the `g`-th is choosing the `g`-th and then
    applying the function. -/
theorem vec4_map {β γ : Type} (f : β → γ) (a b c d : β) (g : Fin 4) :
    (![f a, f b, f c, f d] : Fin 4 → γ) g = f ((![a, b, c, d] : Fin 4 → β) g) := by
  fin_cases g <;> rfl

/-- The hidden part of a weight at `(n, k)` is the weight at `(n, k)`. -/
theorem sliceH_apply (n : Fin 1024) (k : Fin 1024) (x : S1024x1536.Idx → EReal) :
    extractStridedSlice S1024x1024 ![0, 0] x slices_S1024x1536_S1024x1024_0_0 (ix2 n k) = x (ix2 n (colH k)) :=
  extractStridedSlice_apply _ x _ (ix2 n k) (ix2 n (colH k)) (fun a => match a with
    | ⟨0, _⟩ => by show n.val = 0 + n.val; omega
    | ⟨1, _⟩ => by show k.val = 0 + k.val; omega)

/-- The input part of a weight at `(n, k)` is the weight at `(n, 1024 + k)`. -/
theorem sliceY_apply (n : Fin 1024) (k : Fin 512) (x : S1024x1536.Idx → EReal) :
    extractStridedSlice S1024x512 ![0, 1024] x slices_S1024x1536_S1024x512_0_1024 (ix2 n k) = x (ix2 n (colY k)) :=
  extractStridedSlice_apply _ x _ (ix2 n k) (ix2 n (colY k)) (fun a => match a with
    | ⟨0, _⟩ => by show n.val = 0 + n.val; omega
    | ⟨1, _⟩ => by show 1024 + k.val = 1024 + k.val; rfl)

/-- The four hidden parts stacked by rows and narrowed: row `g · 1024 + n`, column `k` is weight `g` at `(n, k)`. -/
theorem hiddenStack_apply (x0 x1 x2 x3 : S1024x1536.Idx → EReal) (g : Fin 4) (n : Fin 1024) (j : Fin 4096) (k : Fin 1024)
    (hj : j.val = g.val * 1024 + n.val) :
    (truncf (F := Ideal) .bf16 (concatenate S4096x1024 0
      [⟨S1024x1024, extractStridedSlice S1024x1024 ![0, 0] x0 slices_S1024x1536_S1024x1024_0_0⟩,
       ⟨S1024x1024, extractStridedSlice S1024x1024 ![0, 0] x1 slices_S1024x1536_S1024x1024_0_0⟩,
       ⟨S1024x1024, extractStridedSlice S1024x1024 ![0, 0] x2 slices_S1024x1536_S1024x1024_0_0⟩,
       ⟨S1024x1024, extractStridedSlice S1024x1024 ![0, 0] x3 slices_S1024x1536_S1024x1024_0_0⟩]
      concatenates_S1024x1024_S1024x1024_S1024x1024_S1024x1024_S4096x1024_d0) bitsLt_bf16_f32 : S4096x1024.Idx → EReal) (ix2 j k)
      = (![x0, x1, x2, x3] : Fin 4 → S1024x1536.Idx → EReal) g (ix2 n (colH k)) := by
  rw [truncf_apply]
  rw [stack4_mat_apply _ _ _ _ _ j k g n hj]
  have h4 := vec4_map (fun x : S1024x1536.Idx → EReal => extractStridedSlice S1024x1024 ![0, 0] x slices_S1024x1536_S1024x1024_0_0) x0 x1 x2 x3 g
  exact (congrFun h4 (ix2 n k)).trans (sliceH_apply n k _)

/-- The four input parts stacked by rows and narrowed: row `g · 1024 + n`, column `k` is weight `g` at `(n, 1024 + k)`. -/
theorem inputStack_apply (x0 x1 x2 x3 : S1024x1536.Idx → EReal) (g : Fin 4) (n : Fin 1024) (j : Fin 4096) (k : Fin 512)
    (hj : j.val = g.val * 1024 + n.val) :
    (truncf (F := Ideal) .bf16 (concatenate S4096x512 0
      [⟨S1024x512, extractStridedSlice S1024x512 ![0, 1024] x0 slices_S1024x1536_S1024x512_0_1024⟩,
       ⟨S1024x512, extractStridedSlice S1024x512 ![0, 1024] x1 slices_S1024x1536_S1024x512_0_1024⟩,
       ⟨S1024x512, extractStridedSlice S1024x512 ![0, 1024] x2 slices_S1024x1536_S1024x512_0_1024⟩,
       ⟨S1024x512, extractStridedSlice S1024x512 ![0, 1024] x3 slices_S1024x1536_S1024x512_0_1024⟩]
      concatenates_S1024x512_S1024x512_S1024x512_S1024x512_S4096x512_d0) bitsLt_bf16_f32 : S4096x512.Idx → EReal) (ix2 j k)
      = (![x0, x1, x2, x3] : Fin 4 → S1024x1536.Idx → EReal) g (ix2 n (colY k)) := by
  rw [truncf_apply]
  rw [stack4_mat_apply _ _ _ _ _ j k g n hj]
  have h4 := vec4_map (fun x : S1024x1536.Idx → EReal => extractStridedSlice S1024x512 ![0, 1024] x slices_S1024x1536_S1024x512_0_1024) x0 x1 x2 x3 g
  exact (congrFun h4 (ix2 n k)).trans (sliceY_apply n k _)

/-- The four biases laid end to end and viewed as one row: entry `g · 1024 + n` of the row is entry `n` of bias `g`
    (the row-major position of `(0, j)` in a `1 × 4096` array is `j`). -/
theorem biasRow_apply (b0 b1 b2 b3 : S1024.Idx → EReal) (g : Fin 4) (n : Fin 1024) (j : Fin 4096) (u : Fin 1)
    (hj : j.val = g.val * 1024 + n.val) :
    (shapeCast S1x4096 (concatenate S4096 0 [⟨S1024, b0⟩, ⟨S1024, b1⟩, ⟨S1024, b2⟩, ⟨S1024, b3⟩] concatenates_S1024_S1024_S1024_S1024_S4096_d0) shapeCasts_S4096_S1x4096 : S1x4096.Idx → EReal) (ix2 u j)
      = (![b0, b1, b2, b3] : Fin 4 → S1024.Idx → EReal) g (ix1 n) := by
  rw [shapeCast_apply _ _ (ix2 u j) (ix1 j) (by
    rw [Shape.rowMajor_val_one, Shape.rowMajor_val_two]
    show j.val = u.val * 4096 + j.val
    have := u.isLt; omega)]
  exact stack4_vec_apply _ _ _ _ _ j g n hj

/-! ## The buffers when the region is entered -/

variable (m : (ℓ : Loc nD τ sig) → Buf (Elt Ideal) ℓ)

/-- The first branch's four weights as launched. -/
abbrev W₁ (c : Dev nD) : Fin 4 → Mat 1024 1536 :=
  ![m ((c : Thread nD τ).loc main_arg5), m ((c : Thread nD τ).loc main_arg7), m ((c : Thread nD τ).loc main_arg9),
    m ((c : Thread nD τ).loc main_arg11)]
/-- The first branch's four biases as launched. -/
abbrev b₁ (c : Dev nD) : Fin 4 → Row 1024 :=
  ![m ((c : Thread nD τ).loc main_arg6), m ((c : Thread nD τ).loc main_arg8), m ((c : Thread nD τ).loc main_arg10),
    m ((c : Thread nD τ).loc main_arg12)]
/-- The second branch's four weights as launched. -/
abbrev W₂ (c : Dev nD) : Fin 4 → Mat 1024 1536 :=
  ![m ((c : Thread nD τ).loc main_arg13), m ((c : Thread nD τ).loc main_arg15), m ((c : Thread nD τ).loc main_arg17),
    m ((c : Thread nD τ).loc main_arg19)]
/-- The second branch's four biases as launched. -/
abbrev b₂ (c : Dev nD) : Fin 4 → Row 1024 :=
  ![m ((c : Thread nD τ).loc main_arg14), m ((c : Thread nD τ).loc main_arg16), m ((c : Thread nD τ).loc main_arg18),
    m ((c : Thread nD τ).loc main_arg20)]

/-- Branch one's hidden stack is the stacked-and-cut term over the launched weights. -/
theorem v5_term (c : Dev nD) : (V m c main_v5 : S4096x1024.Idx → EReal) =
    truncf (F := Ideal) .bf16 (concatenate S4096x1024 0
      [⟨S1024x1024, extractStridedSlice S1024x1024 ![0, 0] (m ((c : Thread nD τ).loc main_arg5) : S1024x1536.Idx → EReal) slices_S1024x1536_S1024x1024_0_0⟩,
       ⟨S1024x1024, extractStridedSlice S1024x1024 ![0, 0] (m ((c : Thread nD τ).loc main_arg7) : S1024x1536.Idx → EReal) slices_S1024x1536_S1024x1024_0_0⟩,
       ⟨S1024x1024, extractStridedSlice S1024x1024 ![0, 0] (m ((c : Thread nD τ).loc main_arg9) : S1024x1536.Idx → EReal) slices_S1024x1536_S1024x1024_0_0⟩,
       ⟨S1024x1024, extractStridedSlice S1024x1024 ![0, 0] (m ((c : Thread nD τ).loc main_arg11) : S1024x1536.Idx → EReal) slices_S1024x1536_S1024x1024_0_0⟩]
      concatenates_S1024x1024_S1024x1024_S1024x1024_S1024x1024_S4096x1024_d0) bitsLt_bf16_f32 := by
  dsimp only [V, hostOps0]; after_results; rfl

/-- Branch one's input stack. -/
theorem v11_term (c : Dev nD) : (V m c main_v11 : S4096x512.Idx → EReal) =
    truncf (F := Ideal) .bf16 (concatenate S4096x512 0
      [⟨S1024x512, extractStridedSlice S1024x512 ![0, 1024] (m ((c : Thread nD τ).loc main_arg5) : S1024x1536.Idx → EReal) slices_S1024x1536_S1024x512_0_1024⟩,
       ⟨S1024x512, extractStridedSlice S1024x512 ![0, 1024] (m ((c : Thread nD τ).loc main_arg7) : S1024x1536.Idx → EReal) slices_S1024x1536_S1024x512_0_1024⟩,
       ⟨S1024x512, extractStridedSlice S1024x512 ![0, 1024] (m ((c : Thread nD τ).loc main_arg9) : S1024x1536.Idx → EReal) slices_S1024x1536_S1024x512_0_1024⟩,
       ⟨S1024x512, extractStridedSlice S1024x512 ![0, 1024] (m ((c : Thread nD τ).loc main_arg11) : S1024x1536.Idx → EReal) slices_S1024x1536_S1024x512_0_1024⟩]
      concatenates_S1024x512_S1024x512_S1024x512_S1024x512_S4096x512_d0) bitsLt_bf16_f32 := by
  dsimp only [V, hostOps0]; after_results; rfl

/-- Branch one's bias row. -/
theorem v13_term (c : Dev nD) : (V m c main_v13 : S1x4096.Idx → EReal) =
    shapeCast S1x4096 (concatenate S4096 0 [⟨S1024, (m ((c : Thread nD τ).loc main_arg6) : S1024.Idx → EReal)⟩, ⟨S1024, (m ((c : Thread nD τ).loc main_arg8) : S1024.Idx → EReal)⟩, ⟨S1024, (m ((c : Thread nD τ).loc main_arg10) : S1024.Idx → EReal)⟩, ⟨S1024, (m ((c : Thread nD τ).loc main_arg12) : S1024.Idx → EReal)⟩] concatenates_S1024_S1024_S1024_S1024_S4096_d0) shapeCasts_S4096_S1x4096 := by
  dsimp only [V, hostOps0]; after_results; rfl

/-- Branch two's hidden stack. -/
theorem v19_term (c : Dev nD) : (V m c main_v19 : S4096x1024.Idx → EReal) =
    truncf (F := Ideal) .bf16 (concatenate S4096x1024 0
      [⟨S1024x1024, extractStridedSlice S1024x1024 ![0, 0] (m ((c : Thread nD τ).loc main_arg13) : S1024x1536.Idx → EReal) slices_S1024x1536_S1024x1024_0_0⟩,
       ⟨S1024x1024, extractStridedSlice S1024x1024 ![0, 0] (m ((c : Thread nD τ).loc main_arg15) : S1024x1536.Idx → EReal) slices_S1024x1536_S1024x1024_0_0⟩,
       ⟨S1024x1024, extractStridedSlice S1024x1024 ![0, 0] (m ((c : Thread nD τ).loc main_arg17) : S1024x1536.Idx → EReal) slices_S1024x1536_S1024x1024_0_0⟩,
       ⟨S1024x1024, extractStridedSlice S1024x1024 ![0, 0] (m ((c : Thread nD τ).loc main_arg19) : S1024x1536.Idx → EReal) slices_S1024x1536_S1024x1024_0_0⟩]
      concatenates_S1024x1024_S1024x1024_S1024x1024_S1024x1024_S4096x1024_d0) bitsLt_bf16_f32 := by
  dsimp only [V, hostOps0]; after_results; rfl

/-- Branch two's input stack. -/
theorem v25_term (c : Dev nD) : (V m c main_v25 : S4096x512.Idx → EReal) =
    truncf (F := Ideal) .bf16 (concatenate S4096x512 0
      [⟨S1024x512, extractStridedSlice S1024x512 ![0, 1024] (m ((c : Thread nD τ).loc main_arg13) : S1024x1536.Idx → EReal) slices_S1024x1536_S1024x512_0_1024⟩,
       ⟨S1024x512, extractStridedSlice S1024x512 ![0, 1024] (m ((c : Thread nD τ).loc main_arg15) : S1024x1536.Idx → EReal) slices_S1024x1536_S1024x512_0_1024⟩,
       ⟨S1024x512, extractStridedSlice S1024x512 ![0, 1024] (m ((c : Thread nD τ).loc main_arg17) : S1024x1536.Idx → EReal) slices_S1024x1536_S1024x512_0_1024⟩,
       ⟨S1024x512, extractStridedSlice S1024x512 ![0, 1024] (m ((c : Thread nD τ).loc main_arg19) : S1024x1536.Idx → EReal) slices_S1024x1536_S1024x512_0_1024⟩]
      concatenates_S1024x512_S1024x512_S1024x512_S1024x512_S4096x512_d0) bitsLt_bf16_f32 := by
  dsimp only [V, hostOps0]; after_results; rfl

/-- Branch two's bias row. -/
theorem v27_term (c : Dev nD) : (V m c main_v27 : S1x4096.Idx → EReal) =
    shapeCast S1x4096 (concatenate S4096 0 [⟨S1024, (m ((c : Thread nD τ).loc main_arg14) : S1024.Idx → EReal)⟩, ⟨S1024, (m ((c : Thread nD τ).loc main_arg16) : S1024.Idx → EReal)⟩, ⟨S1024, (m ((c : Thread nD τ).loc main_arg18) : S1024.Idx → EReal)⟩, ⟨S1024, (m ((c : Thread nD τ).loc main_arg20) : S1024.Idx → EReal)⟩] concatenates_S1024_S1024_S1024_S1024_S4096_d0) shapeCasts_S4096_S1x4096 := by
  dsimp only [V, hostOps0]; after_results; rfl

/-- Branch one's hidden stack at row `g · 1024 + n`, column `k`: weight `g` at `(n, k)`. -/
theorem v5_apply (c : Dev nD) (g : Fin 4) (n : Fin 1024) (j : Fin 4096) (k : Fin 1024) (hj : j.val = g.val * 1024 + n.val) :
    (V m c main_v5 : S4096x1024.Idx → EReal) (ix2 j k) = W₁ m c g (ix2 n (colH k)) :=
  (congrFun (v5_term m c) (ix2 j k)).trans (hiddenStack_apply _ _ _ _ g n j k hj)

/-- Branch one's input stack at row `g · 1024 + n`, column `k`: weight `g` at `(n, 1024 + k)`. -/
theorem v11_apply (c : Dev nD) (g : Fin 4) (n : Fin 1024) (j : Fin 4096) (k : Fin 512) (hj : j.val = g.val * 1024 + n.val) :
    (V m c main_v11 : S4096x512.Idx → EReal) (ix2 j k) = W₁ m c g (ix2 n (colY k)) :=
  (congrFun (v11_term m c) (ix2 j k)).trans (inputStack_apply _ _ _ _ g n j k hj)

/-- Branch one's bias row at `g · 1024 + n`: bias `g` at `n`. -/
theorem v13_apply (c : Dev nD) (g : Fin 4) (n : Fin 1024) (j : Fin 4096) (u : Fin 1) (hj : j.val = g.val * 1024 + n.val) :
    (V m c main_v13 : S1x4096.Idx → EReal) (ix2 u j) = b₁ m c g (ix1 n) :=
  (congrFun (v13_term m c) (ix2 u j)).trans (biasRow_apply _ _ _ _ g n j u hj)

/-- Branch two's hidden stack at row `g · 1024 + n`, column `k`: weight `g` at `(n, k)`. -/
theorem v19_apply (c : Dev nD) (g : Fin 4) (n : Fin 1024) (j : Fin 4096) (k : Fin 1024) (hj : j.val = g.val * 1024 + n.val) :
    (V m c main_v19 : S4096x1024.Idx → EReal) (ix2 j k) = W₂ m c g (ix2 n (colH k)) :=
  (congrFun (v19_term m c) (ix2 j k)).trans (hiddenStack_apply _ _ _ _ g n j k hj)

/-- Branch two's input stack at row `g · 1024 + n`, column `k`: weight `g` at `(n, 1024 + k)`. -/
theorem v25_apply (c : Dev nD) (g : Fin 4) (n : Fin 1024) (j : Fin 4096) (k : Fin 512) (hj : j.val = g.val * 1024 + n.val) :
    (V m c main_v25 : S4096x512.Idx → EReal) (ix2 j k) = W₂ m c g (ix2 n (colY k)) :=
  (congrFun (v25_term m c) (ix2 j k)).trans (inputStack_apply _ _ _ _ g n j k hj)

/-- Branch two's bias row at `g · 1024 + n`: bias `g` at `n`. -/
theorem v27_apply (c : Dev nD) (g : Fin 4) (n : Fin 1024) (j : Fin 4096) (u : Fin 1) (hj : j.val = g.val * 1024 + n.val) :
    (V m c main_v27 : S1x4096.Idx → EReal) (ix2 u j) = b₂ m c g (ix1 n) :=
  (congrFun (v27_term m c) (ix2 u j)).trans (biasRow_apply _ _ _ _ g n j u hj)

end Cert.KernelIdeal.HostArrays

end
-- ==== Proof.KIValue.lean ====
/-
  From the blocks to the two result arrays.

  Point `t` of the 32-point grid works on batch rows `128·t … 128·t + 127`: its block of each hidden state, of the
  input and of the old cell state is those rows of the argument array, the six host-prepared arrays are handed to it
  whole, and what it writes back is those rows of the two results. Row `p` of the point's block is batch row
  `r = 128·t + p`, and stacked column `g·1024 + n` of a host-prepared array is row `n` of gate `g`'s weights (its
  hidden columns, its input columns, or its bias entry). So the block's pre-activation at `(p, g·1024 + n)` is the
  specification's `pre` of gate `g` at `(r, n)`, the block's results at `(p, n)` are the specification's at `(r, n)`,
  and since the 32 blocks tile the 4096 rows, each result array ends as the specification's whole array.
-/
import proofs.«145507_j13769665150976_2_alg».proof.Proof.KIBlock
import proofs.«145507_j13769665150976_2_alg».proof.Proof.KIHost
import proofs.«145507_j13769665150976_2_alg».proof.Proof.Spec

set_option maxRecDepth 16384

noncomputable section

open scoped BigOperators

namespace Cert.KernelIdeal.Arrays

open Cert.KernelIdeal Cert.KernelIdeal.Gen Cert.KernelIdeal.Entry Cert.KernelIdeal.Region Cert.KernelIdeal.Block
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## Where each window's block sits at a point -/

theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx_11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

theorem lt_N (t : Fin cfg0.N) : t.val < 32 := lt_of_lt_of_eq t.isLt N_0

/-- Batch row `128·t + p`: row `p` of point `t`'s block. -/
abbrev row (t : Fin cfg0.N) (p : Fin 128) : Fin 4096 := ⟨t.val * 128 + p.val, by have := lt_N t; omega⟩

/-! ## The input blocks, read -/

theorem blk_0 (c : Dev nD) (t : Fin cfg0.N) (p : Fin 128) (k : Fin 1024) :
    iblk m c 0 t (ix2 p k) = m ((c : Thread nD τ).loc main_arg1) (ix2 (row t p) k) := by
  obtain ⟨e0, e1⟩ := idx_0 t
  unfold iblk
  rw [View.read_apply]
  show V m c main_arg1 (((cfg0.win 0).blk t).view.emb (ix2 p k)) = _
  rw [V_main_arg1]
  refine congrArg _ (funext fun a => Fin.ext ?_)
  match a with
  | ⟨0, _⟩ => show win0_0.index t (0 : Fin 2) * 128 + 1 * p.val = t.val * 128 + p.val; omega
  | ⟨1, _⟩ => show win0_0.index t (1 : Fin 2) * 1024 + 1 * k.val = k.val; omega
theorem blk_1 (c : Dev nD) (t : Fin cfg0.N) (p : Fin 128) (k : Fin 1024) :
    iblk m c 1 t (ix2 p k) = m ((c : Thread nD τ).loc main_arg3) (ix2 (row t p) k) := by
  obtain ⟨e0, e1⟩ := idx_1 t
  unfold iblk
  rw [View.read_apply]
  show V m c main_arg3 (((cfg0.win 1).blk t).view.emb (ix2 p k)) = _
  rw [V_main_arg3]
  refine congrArg _ (funext fun a => Fin.ext ?_)
  match a with
  | ⟨0, _⟩ => show win0_1.index t (0 : Fin 2) * 128 + 1 * p.val = t.val * 128 + p.val; omega
  | ⟨1, _⟩ => show win0_1.index t (1 : Fin 2) * 1024 + 1 * k.val = k.val; omega
theorem blk_2 (c : Dev nD) (t : Fin cfg0.N) (p : Fin 128) (k : Fin 512) :
    iblk m c 2 t (ix2 p k) = m ((c : Thread nD τ).loc main_arg0) (ix2 (row t p) k) := by
  obtain ⟨e0, e1⟩ := idx_2 t
  unfold iblk
  rw [View.read_apply]
  show V m c main_arg0 (((cfg0.win 2).blk t).view.emb (ix2 p k)) = _
  rw [V_main_arg0]
  refine congrArg _ (funext fun a => Fin.ext ?_)
  match a with
  | ⟨0, _⟩ => show win0_2.index t (0 : Fin 2) * 128 + 1 * p.val = t.val * 128 + p.val; omega
  | ⟨1, _⟩ => show win0_2.index t (1 : Fin 2) * 512 + 1 * k.val = k.val; omega
theorem blk_3 (c : Dev nD) (t : Fin cfg0.N) (p : Fin 128) (k : Fin 1024) :
    iblk m c 3 t (ix2 p k) = m ((c : Thread nD τ).loc main_arg2) (ix2 (row t p) k) := by
  obtain ⟨e0, e1⟩ := idx_3 t
  unfold iblk
  rw [View.read_apply]
  show V m c main_arg2 (((cfg0.win 3).blk t).view.emb (ix2 p k)) = _
  rw [V_main_arg2]
  refine congrArg _ (funext fun a => Fin.ext ?_)
  match a with
  | ⟨0, _⟩ => show win0_3.index t (0 : Fin 2) * 128 + 1 * p.val = t.val * 128 + p.val; omega
  | ⟨1, _⟩ => show win0_3.index t (1 : Fin 2) * 1024 + 1 * k.val = k.val; omega
theorem blk_4 (c : Dev nD) (t : Fin cfg0.N) (j : Fin 4096) (k : Fin 1024) :
    iblk m c 4 t (ix2 j k) = (V m c main_v5 : S4096x1024.Idx → EReal) (ix2 j k) := by
  obtain ⟨e0, e1⟩ := idx_4 t
  unfold iblk
  rw [View.read_apply]
  show V m c main_v5 (((cfg0.win 4).blk t).view.emb (ix2 j k)) = _
  refine congrArg _ (funext fun a => Fin.ext ?_)
  match a with
  | ⟨0, _⟩ => show win0_4.index t (0 : Fin 2) * 4096 + 1 * j.val = j.val; omega
  | ⟨1, _⟩ => show win0_4.index t (1 : Fin 2) * 1024 + 1 * k.val = k.val; omega
theorem blk_5 (c : Dev nD) (t : Fin cfg0.N) (j : Fin 4096) (k : Fin 512) :
    iblk m c 5 t (ix2 j k) = (V m c main_v11 : S4096x512.Idx → EReal) (ix2 j k) := by
  obtain ⟨e0, e1⟩ := idx_5 t
  unfold iblk
  rw [View.read_apply]
  show V m c main_v11 (((cfg0.win 5).blk t).view.emb (ix2 j k)) = _
  refine congrArg _ (funext fun a => Fin.ext ?_)
  match a with
  | ⟨0, _⟩ => show win0_5.index t (0 : Fin 2) * 4096 + 1 * j.val = j.val; omega
  | ⟨1, _⟩ => show win0_5.index t (1 : Fin 2) * 512 + 1 * k.val = k.val; omega
theorem blk_6 (c : Dev nD) (t : Fin cfg0.N) (j : Fin 1) (k : Fin 4096) :
    iblk m c 6 t (ix2 j k) = (V m c main_v13 : S1x4096.Idx → EReal) (ix2 j k) := by
  obtain ⟨e0, e1⟩ := idx_6 t
  unfold iblk
  rw [View.read_apply]
  show V m c main_v13 (((cfg0.win 6).blk t).view.emb (ix2 j k)) = _
  refine congrArg _ (funext fun a => Fin.ext ?_)
  match a with
  | ⟨0, _⟩ => show win0_6.index t (0 : Fin 2) * 1 + 1 * j.val = j.val; omega
  | ⟨1, _⟩ => show win0_6.index t (1 : Fin 2) * 4096 + 1 * k.val = k.val; omega
theorem blk_7 (c : Dev nD) (t : Fin cfg0.N) (j : Fin 4096) (k : Fin 1024) :
    iblk m c 7 t (ix2 j k) = (V m c main_v19 : S4096x1024.Idx → EReal) (ix2 j k) := by
  obtain ⟨e0, e1⟩ := idx_7 t
  unfold iblk
  rw [View.read_apply]
  show V m c main_v19 (((cfg0.win 7).blk t).view.emb (ix2 j k)) = _
  refine congrArg _ (funext fun a => Fin.ext ?_)
  match a with
  | ⟨0, _⟩ => show win0_7.index t (0 : Fin 2) * 4096 + 1 * j.val = j.val; omega
  | ⟨1, _⟩ => show win0_7.index t (1 : Fin 2) * 1024 + 1 * k.val = k.val; omega
theorem blk_8 (c : Dev nD) (t : Fin cfg0.N) (j : Fin 4096) (k : Fin 512) :
    iblk m c 8 t (ix2 j k) = (V m c main_v25 : S4096x512.Idx → EReal) (ix2 j k) := by
  obtain ⟨e0, e1⟩ := idx_8 t
  unfold iblk
  rw [View.read_apply]
  show V m c main_v25 (((cfg0.win 8).blk t).view.emb (ix2 j k)) = _
  refine congrArg _ (funext fun a => Fin.ext ?_)
  match a with
  | ⟨0, _⟩ => show win0_8.index t (0 : Fin 2) * 4096 + 1 * j.val = j.val; omega
  | ⟨1, _⟩ => show win0_8.index t (1 : Fin 2) * 512 + 1 * k.val = k.val; omega
theorem blk_9 (c : Dev nD) (t : Fin cfg0.N) (j : Fin 1) (k : Fin 4096) :
    iblk m c 9 t (ix2 j k) = (V m c main_v27 : S1x4096.Idx → EReal) (ix2 j k) := by
  obtain ⟨e0, e1⟩ := idx_9 t
  unfold iblk
  rw [View.read_apply]
  show V m c main_v27 (((cfg0.win 9).blk t).view.emb (ix2 j k)) = _
  refine congrArg _ (funext fun a => Fin.ext ?_)
  match a with
  | ⟨0, _⟩ => show win0_9.index t (0 : Fin 2) * 1 + 1 * j.val = j.val; omega
  | ⟨1, _⟩ => show win0_9.index t (1 : Fin 2) * 4096 + 1 * k.val = k.val; omega

/-! ## The blocks' pre-activations are the specification's -/

open Cert.KernelIdeal.HostArrays
open Cert.DualCell (pre cNew hNew cArr hArr)

/-- A block's pre-activation is the specification's once its rows are the arrays' rows and its stacked column is a gate's
    weight row: stated over arbitrary arrays. -/
theorem zrow_eq_pre (h : S128x1024.Idx → EReal) (y : S128x512.Idx → EReal) (Wh : S4096x1024.Idx → EReal) (Wy : S4096x512.Idx → EReal)
    (b : S1x4096.Idx → EReal) (H : Cert.DualCell.Mat 4096 1024) (Y : Cert.DualCell.Mat 4096 512) (W : Cert.DualCell.Mat 1024 1536)
    (B : Cert.DualCell.Row 1024) (p : Fin 128) (j : Fin 4096) (r : Fin 4096) (n : Fin 1024)
    (hh : ∀ k : Fin 1024, h (ix2 p k) = H (ix2 r k)) (hy : ∀ k : Fin 512, y (ix2 p k) = Y (ix2 r k))
    (hWh : ∀ k : Fin 1024, Wh (ix2 j k) = W (ix2 n (Cert.DualCell.colH k)))
    (hWy : ∀ k : Fin 512, Wy (ix2 j k) = W (ix2 n (Cert.DualCell.colY k)))
    (hb : b (ix2 (0 : Fin 1) j) = B (ix1 n)) :
    zrow h y Wh Wy b p j = pre H Y W B r n := by
  unfold zrow pre
  simp only [hh, hy, hWh, hWy, hb]

/-- Branch one: row `p` of point `t`, gate `g`, unit `q`. -/
theorem z1_eq (c : Dev nD) (t : Fin cfg0.N) (p : Fin 128) (g : Fin 4) (q : Fin 1024) :
    zrow (iblk m c 0 t) (iblk m c 2 t) (iblk m c 4 t) (iblk m c 5 t) (iblk m c 6 t) p (col g q)
      = pre (m ((c : Thread nD τ).loc main_arg1)) (m ((c : Thread nD τ).loc main_arg0)) (W₁ m c g) (b₁ m c g) (row t p) q :=
  zrow_eq_pre (iblk m c 0 t) (iblk m c 2 t) (iblk m c 4 t) (iblk m c 5 t) (iblk m c 6 t)
    (m ((c : Thread nD τ).loc main_arg1)) (m ((c : Thread nD τ).loc main_arg0)) (W₁ m c g) (b₁ m c g) p (col g q) (row t p) q
    (fun k => blk_0 m c t p k) (fun k => blk_2 m c t p k)
    (fun k => (blk_4 m c t (col g q) k).trans (v5_apply m c g q (col g q) k rfl))
    (fun k => (blk_5 m c t (col g q) k).trans (v11_apply m c g q (col g q) k rfl))
    ((blk_6 m c t 0 (col g q)).trans (v13_apply m c g q (col g q) 0 rfl))

/-- Branch two. -/
theorem z2_eq (c : Dev nD) (t : Fin cfg0.N) (p : Fin 128) (g : Fin 4) (q : Fin 1024) :
    zrow (iblk m c 1 t) (iblk m c 2 t) (iblk m c 7 t) (iblk m c 8 t) (iblk m c 9 t) p (col g q)
      = pre (m ((c : Thread nD τ).loc main_arg3)) (m ((c : Thread nD τ).loc main_arg0)) (W₂ m c g) (b₂ m c g) (row t p) q :=
  zrow_eq_pre (iblk m c 1 t) (iblk m c 2 t) (iblk m c 7 t) (iblk m c 8 t) (iblk m c 9 t)
    (m ((c : Thread nD τ).loc main_arg3)) (m ((c : Thread nD τ).loc main_arg0)) (W₂ m c g) (b₂ m c g) p (col g q) (row t p) q
    (fun k => blk_1 m c t p k) (fun k => blk_2 m c t p k)
    (fun k => (blk_7 m c t (col g q) k).trans (v19_apply m c g q (col g q) k rfl))
    (fun k => (blk_8 m c t (col g q) k).trans (v25_apply m c g q (col g q) k rfl))
    ((blk_9 m c t 0 (col g q)).trans (v27_apply m c g q (col g q) 0 rfl))

/-- The block's new cell state is the specification's at the block's batch row. -/
theorem cBlk_eq (c : Dev nD) (t : Fin cfg0.N) (p : Fin 128) (q : Fin 1024) :
    cBlk (iblk m c 0 t) (iblk m c 1 t) (iblk m c 2 t) (iblk m c 3 t) (iblk m c 4 t) (iblk m c 5 t) (iblk m c 6 t) (iblk m c 7 t) (iblk m c 8 t) (iblk m c 9 t) p q = cNew (W₁ m c) (W₂ m c) (b₁ m c) (b₂ m c) (m ((c : Thread nD τ).loc main_arg1)) (m ((c : Thread nD τ).loc main_arg3)) (m ((c : Thread nD τ).loc main_arg0)) (m ((c : Thread nD τ).loc main_arg2)) (row t p) q := by
  unfold cBlk cNew
  rw [z1_eq m c t p 0 q, z1_eq m c t p 1 q, z1_eq m c t p 2 q, z2_eq m c t p 0 q, z2_eq m c t p 1 q, z2_eq m c t p 2 q, blk_3]

/-- The block's new hidden state is the specification's at the block's batch row. -/
theorem hBlk_eq (c : Dev nD) (t : Fin cfg0.N) (p : Fin 128) (q : Fin 1024) :
    hBlk (iblk m c 0 t) (iblk m c 1 t) (iblk m c 2 t) (iblk m c 3 t) (iblk m c 4 t) (iblk m c 5 t) (iblk m c 6 t) (iblk m c 7 t) (iblk m c 8 t) (iblk m c 9 t) p q = hNew (W₁ m c) (W₂ m c) (b₁ m c) (b₂ m c) (m ((c : Thread nD τ).loc main_arg1)) (m ((c : Thread nD τ).loc main_arg3)) (m ((c : Thread nD τ).loc main_arg0)) (m ((c : Thread nD τ).loc main_arg2)) (row t p) q := by
  unfold hBlk hNew
  rw [z1_eq m c t p 3 q, z2_eq m c t p 3 q, cBlk_eq m c t p q]

/-! ## The two result arrays -/

/-- The specification's new hidden state of the launched arguments. -/
abbrev Hres (c : Dev nD) : S4096x1024.Idx → EReal := hArr (W₁ m c) (W₂ m c) (b₁ m c) (b₂ m c) (m ((c : Thread nD τ).loc main_arg1)) (m ((c : Thread nD τ).loc main_arg3)) (m ((c : Thread nD τ).loc main_arg0)) (m ((c : Thread nD τ).loc main_arg2))
/-- The specification's new cell state of the launched arguments. -/
abbrev Cres (c : Dev nD) : S4096x1024.Idx → EReal := cArr (W₁ m c) (W₂ m c) (b₁ m c) (b₂ m c) (m ((c : Thread nD τ).loc main_arg1)) (m ((c : Thread nD τ).loc main_arg3)) (m ((c : Thread nD τ).loc main_arg0)) (m ((c : Thread nD τ).loc main_arg2))

/-- What point `t` writes back into the first result is block `t` of the specification's array. -/
theorem flushed_10 (c : Dev nD) (t : Fin cfg0.N) :
    (dats m 0 c).flushed 10 t = ((cfg0.win 10).blk t).view.read (Elt Ideal) (Hres m c) := by
  show (cfg0.win 10).cut (grid0.coords t) ((dats m 0 c).after 10 t) = _
  rw [after_10]
  funext j
  obtain ⟨p, q, rfl⟩ : ∃ (p : Fin 128) (q : Fin 1024), j = ix2 p q := ⟨j 0, j 1, eq_ix2 j⟩
  rw [View.read_apply]
  refine (out_10_apply (iblk m c 0 t) (iblk m c 1 t) (iblk m c 2 t) (iblk m c 3 t) (iblk m c 4 t) (iblk m c 5 t) (iblk m c 6 t) (iblk m c 7 t) (iblk m c 8 t) (iblk m c 9 t) p q).trans ?_
  rw [hBlk_eq m c t p q]
  obtain ⟨e0, e1⟩ := idx_10 t
  have e : ((cfg0.win 10).blk t).view.emb (ix2 p q) = ix2 (row t p) q := by
    funext a; apply Fin.ext
    match a with
    | ⟨0, _⟩ => show win0_10.index t (0 : Fin 2) * 128 + 1 * p.val = t.val * 128 + p.val; omega
    | ⟨1, _⟩ => show win0_10.index t (1 : Fin 2) * 1024 + 1 * q.val = q.val; omega
  rw [e]
  rfl

/-- An index of the first result array lies in point `t`'s block iff each coordinate lies in the block's range. -/
theorem mem_blk_10 (t : Fin cfg0.N) (i : S4096x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v28_0).slice (win0_10.rect t)).set ↔ _
  rw [View.set_slice_whole, Rect.mem_set_unit]
  exact Iff.rfl

/-- Every row lies in the block of the point `row / 128`: the 32 blocks tile the array. -/
theorem cover_10 (i : S4096x1024.Idx) : ∃ t : Fin cfg0.N, (cfg0.win 10).flush t = true ∧ i ∈ ((cfg0.win 10).blk t).view.set := by
  have hi0 : (i 0).val < 4096 := (i 0).isLt
  have hi1 : (i 1).val < 1024 := (i 1).isLt
  have hN : (i 0).val / 128 < cfg0.N := by rw [show cfg0.N = 32 from N_0]; omega
  obtain ⟨e0, e1⟩ := idx_10 ⟨(i 0).val / 128, hN⟩
  refine ⟨⟨(i 0).val / 128, hN⟩, flush0_10 _, ?_⟩
  rw [mem_blk_10]
  intro a
  match a with
  | ⟨0, _⟩ =>
    show win0_10.index ⟨(i 0).val / 128, hN⟩ (0 : Fin 2) * 128 ≤ (i 0).val ∧ (i 0).val < win0_10.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_10.index ⟨(i 0).val / 128, hN⟩ (1 : Fin 2) * 1024 ≤ (i 1).val ∧ (i 1).val < win0_10.index ⟨(i 0).val / 128, hN⟩ (1 : Fin 2) * 1024 + 1024
    rw [e1]; omega

/-- The first result array after the run. -/
theorem final_10 (c : Dev nD) : (dats m 0 c).arrAt 10 cfg0.N = Hres m c :=
  (dats m 0 c).arrAt_eq_of_cover 10 (Hres m c) (fun t _ => flushed_10 m c t) cover_10

/-- What point `t` writes back into the second result is block `t` of the specification's array. -/
theorem flushed_11 (c : Dev nD) (t : Fin cfg0.N) :
    (dats m 0 c).flushed 11 t = ((cfg0.win 11).blk t).view.read (Elt Ideal) (Cres m c) := by
  show (cfg0.win 11).cut (grid0.coords t) ((dats m 0 c).after 11 t) = _
  rw [after_11]
  funext j
  obtain ⟨p, q, rfl⟩ : ∃ (p : Fin 128) (q : Fin 1024), j = ix2 p q := ⟨j 0, j 1, eq_ix2 j⟩
  rw [View.read_apply]
  refine (out_11_apply (iblk m c 0 t) (iblk m c 1 t) (iblk m c 2 t) (iblk m c 3 t) (iblk m c 4 t) (iblk m c 5 t) (iblk m c 6 t) (iblk m c 7 t) (iblk m c 8 t) (iblk m c 9 t) p q).trans ?_
  rw [cBlk_eq m c t p q]
  obtain ⟨e0, e1⟩ := idx_11 t
  have e : ((cfg0.win 11).blk t).view.emb (ix2 p q) = ix2 (row t p) q := by
    funext a; apply Fin.ext
    match a with
    | ⟨0, _⟩ => show win0_11.index t (0 : Fin 2) * 128 + 1 * p.val = t.val * 128 + p.val; omega
    | ⟨1, _⟩ => show win0_11.index t (1 : Fin 2) * 1024 + 1 * q.val = q.val; omega
  rw [e]
  rfl

/-- An index of the second result array lies in point `t`'s block iff each coordinate lies in the block's range. -/
theorem mem_blk_11 (t : Fin cfg0.N) (i : S4096x1024.Idx) :
    i ∈ ((cfg0.win 11).blk t).view.set ↔ ∀ a : Fin 2, win0_11.index t a * S128x1024.size a ≤ (i a).val ∧ (i a).val < win0_11.index t a * S128x1024.size a + S128x1024.size a := by
  show i ∈ ((View.whole main_v28_1).slice (win0_11.rect t)).set ↔ _
  rw [View.set_slice_whole, Rect.mem_set_unit]
  exact Iff.rfl

/-- Every row lies in the block of the point `row / 128`: the 32 blocks tile the array. -/
theorem cover_11 (i : S4096x1024.Idx) : ∃ t : Fin cfg0.N, (cfg0.win 11).flush t = true ∧ i ∈ ((cfg0.win 11).blk t).view.set := by
  have hi0 : (i 0).val < 4096 := (i 0).isLt
  have hi1 : (i 1).val < 1024 := (i 1).isLt
  have hN : (i 0).val / 128 < cfg0.N := by rw [show cfg0.N = 32 from N_0]; omega
  obtain ⟨e0, e1⟩ := idx_11 ⟨(i 0).val / 128, hN⟩
  refine ⟨⟨(i 0).val / 128, hN⟩, flush0_11 _, ?_⟩
  rw [mem_blk_11]
  intro a
  match a with
  | ⟨0, _⟩ =>
    show win0_11.index ⟨(i 0).val / 128, hN⟩ (0 : Fin 2) * 128 ≤ (i 0).val ∧ (i 0).val < win0_11.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_11.index ⟨(i 0).val / 128, hN⟩ (1 : Fin 2) * 1024 ≤ (i 1).val ∧ (i 1).val < win0_11.index ⟨(i 0).val / 128, hN⟩ (1 : Fin 2) * 1024 + 1024
    rw [e1]; omega

/-- The second result array after the run. -/
theorem final_11 (c : Dev nD) : (dats m 0 c).arrAt 11 cfg0.N = Cres m c :=
  (dats m 0 c).arrAt_eq_of_cover 11 (Cres m c) (fun t _ => flushed_11 m c t) cover_11

/-! ## The run, read -/

/-- After the run every argument array is as launched. -/
theorem args_kept (r : PUnit × MemSt nD τ sig (Elt Ideal)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  ⟨((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩

/-- Every weakly fair execution terminates without a fault, with the first result at the specification's new hidden
    state of the arguments, the second at its new cell state, and the arguments unchanged. -/
theorem run : θ_run defs (onTc (τ := τ) (main (F := Ideal))) ⟨m, fun _ => 0, ρ⟩ fun r => ∀ c : Dev nD,
      r.2.mem ((c.tc : Thread nD τ).loc main_v28_0) = Hres m c
      ∧ r.2.mem ((c.tc : Thread nD τ).loc main_v28_1) = Cres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun r h c => ⟨((h c).1 10).trans (final_10 m c), ((h c).1 11).trans (final_11 m c), args_kept m r h c⟩)
    (run_main m ρ)

end Cert.KernelIdeal.Arrays

end
-- ==== Proof.RefCell.lean ====
/-
  The reference program's two results are the dual-branch cell of the specification, entry by entry.

  The reference joins each branch's hidden state and the shared input into the rows `[h | y]` (1536 columns), stacks
  the branch's four gate matrices by rows into one 4096 × 1536 matrix and its four bias vectors into one of length
  4096, multiplies `[h | y]` by the transposed stack and adds the bias to every row. Column `g · 1024 + n` of that
  4096 × 4096 array is the pre-activation of gate `g` at unit `n`: the contraction's 1536 terms are the 1024 hidden
  ones followed by the 512 input ones, and row `g · 1024 + n` of the stack is row `n` of gate `g`'s matrix.
  The four column groups of width 1024 are then the forget, input, candidate and output gates. The logistic function
  is spelled `1 / (1 + e^(−x))`, which is what it is on the extended reals by definition. Each branch contributes
  `σ f · c + σ i · tanh g` to the new cell state; the sum of the two contributions is the specification's
  `(σ f₁ + σ f₂) · c + (σ i₁ · tanh g₁ + σ i₂ · tanh g₂)` because the logistic function is nonnegative. The new hidden
  state is `(σ o₁ + σ o₂) · tanh c'` on both sides.

  The second branch's operations are, one for one, the first branch's applied to the second branch's arguments, so
  every fact is proved once, for arbitrary arguments.
-/
import proofs.«145507_j13769665150976_2_alg».proof.Defs
import proofs.«145507_j13769665150976_2_alg».proof.Proof.Gen.ReferenceIdeal.Run
import proofs.«145507_j13769665150976_2_alg».proof.Proof.Gen.ReferenceIdeal.Read
import proofs.«145507_j13769665150976_2_alg».proof.Proof.Spec
import proofs.«145507_j13769665150976_2_alg».proof.Proof.LibStack4
import Idealize.ShloMosaic.Lib.IdealHost

noncomputable section

open scoped BigOperators

namespace Cert.ReferenceIdeal.RefCell

open Cert.ReferenceIdeal Cert.ReferenceIdeal.Gen Cert.ReferenceIdeal.Read Cert.DualCell
open Idealize.ShloMosaic Idealize.ShloMosaic.ValueIdx

/-! ## The joined arrays at coordinates -/

/-- The row `[h | y]` at one of its first 1024 columns is `h` at that column. -/
theorem cat_hidden (h : Mat 4096 1024) (y : Mat 4096 512) (r : Fin 4096) (k : Fin 1024) (j : S4096x1536.Idx)
    (h0 : (j 0).val = r.val) (h1 : (j 1).val = k.val) :
    concatenate S4096x1536 1 [⟨S4096x1024, h⟩, ⟨S4096x512, y⟩] concatenates_S4096x1024_S4096x512_S4096x1536_d1 j
      = h (ix2 r k) :=
  concatenate_pair_apply_left 1 h y _ j rfl (ix2 r k) (fun b => by
    match b with
    | ⟨0, _⟩ => exact h0.symm
    | ⟨1, _⟩ => exact h1.symm)

/-- The row `[h | y]` at column `1024 + k` is `y` at column `k`. -/
theorem cat_input (h : Mat 4096 1024) (y : Mat 4096 512) (r : Fin 4096) (k : Fin 512) (j : S4096x1536.Idx)
    (h0 : (j 0).val = r.val) (h1 : (j 1).val = 1024 + k.val) :
    concatenate S4096x1536 1 [⟨S4096x1024, h⟩, ⟨S4096x512, y⟩] concatenates_S4096x1024_S4096x512_S4096x1536_d1 j
      = y (ix2 r k) :=
  concatenate_pair_apply_right 1 h y _ j rfl rfl (ix2 r k)
    (fun b hb => by
      match b with
      | ⟨0, _⟩ => exact h0.symm
      | ⟨1, _⟩ => exact absurd rfl hb)
    (by show k.val + 1024 = (j 1).val; omega)

/-- Four weight matrices stacked by rows: row `g · 1024 + n` of the stack is row `n` of matrix `g`. -/
theorem stack_mat (w0 w1 w2 w3 : Mat 1024 1536) (g : Fin 4) (n : Fin 1024) (k : Fin 1536) (j : S4096x1536.Idx)
    (h0 : (j 0).val = g.val * 1024 + n.val) (h1 : (j 1).val = k.val) :
    concatenate S4096x1536 0 [⟨S1024x1536, w0⟩, ⟨S1024x1536, w1⟩, ⟨S1024x1536, w2⟩, ⟨S1024x1536, w3⟩]
      concatenates_S1024x1536_S1024x1536_S1024x1536_S1024x1536_S4096x1536_d0 j = ![w0, w1, w2, w3] g (ix2 n k) :=
  Cert.LibStack4.concatenate4_apply (t := S4096x1536) (s := S1024x1536) 0 w0 w1 w2 w3 _ rfl j g (ix2 n k)
    (fun b hb => by
      match b with
      | ⟨0, _⟩ => exact absurd rfl hb
      | ⟨1, _⟩ => exact h1.symm)
    (by show g.val * 1024 + n.val = (j 0).val; omega)

/-- Four bias vectors laid end to end: entry `g · 1024 + n` is entry `n` of vector `g`. -/
theorem stack_vec (b0 b1 b2 b3 : Row 1024) (g : Fin 4) (n : Fin 1024) (j : S4096.Idx)
    (h0 : (j 0).val = g.val * 1024 + n.val) :
    concatenate S4096 0 [⟨S1024, b0⟩, ⟨S1024, b1⟩, ⟨S1024, b2⟩, ⟨S1024, b3⟩]
      concatenates_S1024_S1024_S1024_S1024_S4096_d0 j = ![b0, b1, b2, b3] g (ix1 n) :=
  Cert.LibStack4.concatenate4_apply (t := S4096) (s := S1024) 0 b0 b1 b2 b3 _ rfl j g (ix1 n)
    (fun a ha => by
      match a with
      | ⟨0, _⟩ => exact absurd rfl ha)
    (by show g.val * 1024 + n.val = (j 0).val; omega)

/-! ## A gate's pre-activation -/

/-- The product with the transposed stack plus the broadcast bias, at batch row `r` and column `g · 1024 + n`, is the
    pre-activation of gate `g` at `(r, n)`. -/
theorem pre_at (y : Mat 4096 512) (h : Mat 4096 1024) (w0 : Mat 1024 1536) (b0 : Row 1024) (w1 : Mat 1024 1536)
    (b1 : Row 1024) (w2 : Mat 1024 1536) (b2 : Row 1024) (w3 : Mat 1024 1536) (b3 : Row 1024)
    (g : Fin 4) (r : Fin 4096) (n : Fin 1024) (j : S4096x4096.Idx)
    (h0 : (j 0).val = r.val) (h1 : (j 1).val = g.val * 1024 + n.val) :
    val_main_v8 (F := Ideal) y h w0 b0 w1 b1 w2 b2 w3 b3 j
      = pre h y (![w0, w1, w2, w3] g) (![b0, b1, b2, b3] g) r n := by
  rw [val_main_v8_apply, val_main_v5_apply, val_main_v7_apply, val_main_v6_apply, Ideal.addf_def, sum_cols]
  unfold pre
  refine congrArg₂ (· + ·) (congrArg₂ (· + ·) ?_ ?_) ?_
  · refine Finset.sum_congr rfl fun k _ => ?_
    rw [val_main_v4_apply]
    exact congrArg₂ (· * ·) (cat_hidden h y r k _ h0 rfl) (stack_mat w0 w1 w2 w3 g n (colH k) _ h1 rfl)
  · refine Finset.sum_congr rfl fun k _ => ?_
    rw [val_main_v4_apply]
    exact congrArg₂ (· * ·) (cat_input h y r k _ h0 rfl) (stack_mat w0 w1 w2 w3 g n (colY k) _ h1 rfl)
  · exact stack_vec b0 b1 b2 b3 g n _ h1

/-- The logistic function as the reference spells it, `1 / (1 + e^(−x))` with the constant one given by its bit pattern. -/
theorem logistic_spelled (x : EReal) :
    FloatOps.hostDivf (F := Ideal) (φ := .f32) (FloatOps.ofBits .f32 0x3F800000#32)
      (FloatOps.addf (FloatOps.ofBits .f32 0x3F800000#32) (FloatOps.hostUnary .exp (FloatOps.hostNegf x)))
      = Ideal.logistic x := by
  simp only [Ideal.hostDivf_def, Ideal.addf_def, Ideal.ofBits_def, Ideal.ofBits_one_f32, Ideal.hostUnary_exp_def,
    Ideal.hostNegf_def, Ideal.negf_def]
  rfl

/-! ## One branch: its four gates and its contribution to the cell state -/

section Branch

variable (y : Mat 4096 512) (h c : Mat 4096 1024) (w0 : Mat 1024 1536) (b0 : Row 1024) (w1 : Mat 1024 1536)
  (b1 : Row 1024) (w2 : Mat 1024 1536) (b2 : Row 1024) (w3 : Mat 1024 1536) (b3 : Row 1024)

/-- The forget gate: the logistic function of the first column group. -/
theorem forget_at (i : S4096x1024.Idx) :
    val_main_v18 (F := Ideal) y h w0 b0 w1 b1 w2 b2 w3 b3 i = Ideal.logistic (pre h y w0 b0 (i 0) (i 1)) := by
  rw [val_main_v18_apply, val_main_v17_apply, val_main_cst_0_apply, val_main_v16_apply, val_main_v15_apply,
    val_main_cst_apply, val_main_v14_apply, val_main_v13_apply, val_main_v9_apply, logistic_spelled]
  exact congrArg Ideal.logistic (pre_at y h w0 b0 w1 b1 w2 b2 w3 b3 0 (i 0) (i 1) (idx_main_v9 i) rfl
    (by show (i 1).val = 0 * 1024 + (i 1).val; omega))

/-- The input gate: the logistic function of the second column group. -/
theorem input_at (i : S4096x1024.Idx) :
    val_main_v24 (F := Ideal) y h w0 b0 w1 b1 w2 b2 w3 b3 i = Ideal.logistic (pre h y w1 b1 (i 0) (i 1)) := by
  rw [val_main_v24_apply, val_main_v23_apply, val_main_cst_2_apply, val_main_v22_apply, val_main_v21_apply,
    val_main_cst_1_apply, val_main_v20_apply, val_main_v19_apply, val_main_v10_apply, logistic_spelled]
  exact congrArg Ideal.logistic (pre_at y h w0 b0 w1 b1 w2 b2 w3 b3 1 (i 0) (i 1) (idx_main_v10 i) rfl
    (by show 1024 + (i 1).val = 1 * 1024 + (i 1).val; omega))

/-- The candidate: the hyperbolic tangent of the third column group. -/
theorem cand_at (i : S4096x1024.Idx) :
    val_main_v25 (F := Ideal) y h w0 b0 w1 b1 w2 b2 w3 b3 i = Ideal.tanh (pre h y w2 b2 (i 0) (i 1)) := by
  rw [val_main_v25_apply, val_main_v11_apply, Ideal.hostUnary_tanh_def]
  exact congrArg Ideal.tanh (pre_at y h w0 b0 w1 b1 w2 b2 w3 b3 2 (i 0) (i 1) (idx_main_v11 i) rfl
    (by show 2048 + (i 1).val = 2 * 1024 + (i 1).val; omega))

/-- The output gate: the logistic function of the fourth column group. -/
theorem output_at (i : S4096x1024.Idx) :
    val_main_v31 (F := Ideal) y h w0 b0 w1 b1 w2 b2 w3 b3 i = Ideal.logistic (pre h y w3 b3 (i 0) (i 1)) := by
  rw [val_main_v31_apply, val_main_v30_apply, val_main_cst_4_apply, val_main_v29_apply, val_main_v28_apply,
    val_main_cst_3_apply, val_main_v27_apply, val_main_v26_apply, val_main_v12_apply, logistic_spelled]
  exact congrArg Ideal.logistic (pre_at y h w0 b0 w1 b1 w2 b2 w3 b3 3 (i 0) (i 1) (idx_main_v12 i) rfl
    (by show 3072 + (i 1).val = 3 * 1024 + (i 1).val; omega))

/-- The branch's contribution to the new cell state: the old state through the forget gate plus the candidate through
    the input gate. -/
theorem cell_at (i : S4096x1024.Idx) :
    val_main_v64 (F := Ideal) y h c w0 b0 w1 b1 w2 b2 w3 b3 i
      = Ideal.logistic (pre h y w0 b0 (i 0) (i 1)) * c (ix2 (i 0) (i 1))
        + Ideal.logistic (pre h y w1 b1 (i 0) (i 1)) * Ideal.tanh (pre h y w2 b2 (i 0) (i 1)) := by
  rw [val_main_v64_apply, val_main_v62_apply, val_main_v63_apply, forget_at, input_at, cand_at,
    show c i = c (ix2 (i 0) (i 1)) from congrArg c (eq_ix2 i)]
  rfl

end Branch

/-! ## The two results -/

/-- The second branch's contribution is the first branch's operations at the second branch's arguments. -/
theorem cell2_eq (y : Mat 4096 512) (c h : Mat 4096 1024) (w0 : Mat 1024 1536) (b0 : Row 1024) (w1 : Mat 1024 1536)
    (b1 : Row 1024) (w2 : Mat 1024 1536) (b2 : Row 1024) (w3 : Mat 1024 1536) (b3 : Row 1024) :
    val_main_v67 (F := Ideal) y c h w0 b0 w1 b1 w2 b2 w3 b3 = val_main_v64 (F := Ideal) y h c w0 b0 w1 b1 w2 b2 w3 b3 :=
  rfl

/-- The second branch's output gate is the first branch's operations at the second branch's arguments. -/
theorem out2_eq (y : Mat 4096 512) (h : Mat 4096 1024) (w0 : Mat 1024 1536) (b0 : Row 1024) (w1 : Mat 1024 1536)
    (b1 : Row 1024) (w2 : Mat 1024 1536) (b2 : Row 1024) (w3 : Mat 1024 1536) (b3 : Row 1024) :
    val_main_v61 (F := Ideal) y h w0 b0 w1 b1 w2 b2 w3 b3 = val_main_v31 (F := Ideal) y h w0 b0 w1 b1 w2 b2 w3 b3 :=
  rfl

/-- The reference's new cell state is the specification's. -/
theorem result_c (x0 : Mat 4096 512) (x1 x2 x3 : Mat 4096 1024) (x5 : Mat 1024 1536) (x6 : Row 1024) (x7 : Mat 1024 1536)
    (x8 : Row 1024) (x9 : Mat 1024 1536) (x10 : Row 1024) (x11 : Mat 1024 1536) (x12 : Row 1024) (x13 : Mat 1024 1536)
    (x14 : Row 1024) (x15 : Mat 1024 1536) (x16 : Row 1024) (x17 : Mat 1024 1536) (x18 : Row 1024) (x19 : Mat 1024 1536)
    (x20 : Row 1024) :
    val_main_v68 (F := Ideal) x0 x1 x2 x3 x5 x6 x7 x8 x9 x10 x11 x12 x13 x14 x15 x16 x17 x18 x19 x20
      = cArr ![x5, x7, x9, x11] ![x13, x15, x17, x19] ![x6, x8, x10, x12] ![x14, x16, x18, x20] x1 x3 x0 x2 := by
  funext i
  rw [val_main_v68_apply, cell2_eq, cell_at, cell_at, Ideal.addf_def]
  exact (gate_law (logistic_nonneg _) (logistic_nonneg _) _ _ _).symm

/-- The reference's new hidden state is the specification's. -/
theorem result_h (x0 : Mat 4096 512) (x1 x2 x3 : Mat 4096 1024) (x5 : Mat 1024 1536) (x6 : Row 1024) (x7 : Mat 1024 1536)
    (x8 : Row 1024) (x9 : Mat 1024 1536) (x10 : Row 1024) (x11 : Mat 1024 1536) (x12 : Row 1024) (x13 : Mat 1024 1536)
    (x14 : Row 1024) (x15 : Mat 1024 1536) (x16 : Row 1024) (x17 : Mat 1024 1536) (x18 : Row 1024) (x19 : Mat 1024 1536)
    (x20 : Row 1024) :
    val_main_v71 (F := Ideal) x0 x1 x2 x3 x5 x6 x7 x8 x9 x10 x11 x12 x13 x14 x15 x16 x17 x18 x19 x20
      = hArr ![x5, x7, x9, x11] ![x13, x15, x17, x19] ![x6, x8, x10, x12] ![x14, x16, x18, x20] x1 x3 x0 x2 := by
  funext i
  rw [val_main_v71_apply, val_main_v69_apply, val_main_v70_apply, result_c, out2_eq, output_at, output_at,
    Ideal.hostUnary_tanh_def]
  rfl

end Cert.ReferenceIdeal.RefCell

end
-- ==== Proof.RefRun.lean ====
/-
  The reference program's run ends with the specification's two arrays of its launched arguments.

  The run names each result as the composed term of the host operations; that term is the last stage, and the last
  stage is the specification's new hidden state (first result) or new cell state (second result) of the arguments:
  the light branch's gates are arguments 5, 7, 9, 11 with biases 6, 8, 10, 12, the second branch's 13, 15, 17, 19 with
  14, 16, 18, 20; the hidden states are arguments 1 and 3, the input argument 0, the old cell state argument 2.
-/
import proofs.«145507_j13769665150976_2_alg».proof.Proof.RefCell

noncomputable section

namespace Cert.ReferenceIdeal.RefRun

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- The first result: the new hidden state. -/
theorem res_h : Cert.ReferenceIdeal.Value.res_main_v71 m c
    = Cert.DualCell.hArr ![m ((c.tc : Thread nD τ).loc main_arg5), m ((c.tc : Thread nD τ).loc main_arg7), m ((c.tc : Thread nD τ).loc main_arg9), m ((c.tc : Thread nD τ).loc main_arg11)] ![m ((c.tc : Thread nD τ).loc main_arg13), m ((c.tc : Thread nD τ).loc main_arg15), m ((c.tc : Thread nD τ).loc main_arg17), m ((c.tc : Thread nD τ).loc main_arg19)]
        ![m ((c.tc : Thread nD τ).loc main_arg6), m ((c.tc : Thread nD τ).loc main_arg8), m ((c.tc : Thread nD τ).loc main_arg10), m ((c.tc : Thread nD τ).loc main_arg12)] ![m ((c.tc : Thread nD τ).loc main_arg14), m ((c.tc : Thread nD τ).loc main_arg16), m ((c.tc : Thread nD τ).loc main_arg18), m ((c.tc : Thread nD τ).loc main_arg20)]
        (m ((c.tc : Thread nD τ).loc main_arg1)) (m ((c.tc : Thread nD τ).loc main_arg3)) (m ((c.tc : Thread nD τ).loc main_arg0)) (m ((c.tc : Thread nD τ).loc main_arg2)) :=
  (Cert.ReferenceIdeal.Read.val_main_v71_eq m c).trans
    (Cert.ReferenceIdeal.RefCell.result_h (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)))

/-- The second result: the new cell state. -/
theorem res_c : Cert.ReferenceIdeal.Value.res_main_v68 m c
    = Cert.DualCell.cArr ![m ((c.tc : Thread nD τ).loc main_arg5), m ((c.tc : Thread nD τ).loc main_arg7), m ((c.tc : Thread nD τ).loc main_arg9), m ((c.tc : Thread nD τ).loc main_arg11)] ![m ((c.tc : Thread nD τ).loc main_arg13), m ((c.tc : Thread nD τ).loc main_arg15), m ((c.tc : Thread nD τ).loc main_arg17), m ((c.tc : Thread nD τ).loc main_arg19)]
        ![m ((c.tc : Thread nD τ).loc main_arg6), m ((c.tc : Thread nD τ).loc main_arg8), m ((c.tc : Thread nD τ).loc main_arg10), m ((c.tc : Thread nD τ).loc main_arg12)] ![m ((c.tc : Thread nD τ).loc main_arg14), m ((c.tc : Thread nD τ).loc main_arg16), m ((c.tc : Thread nD τ).loc main_arg18), m ((c.tc : Thread nD τ).loc main_arg20)]
        (m ((c.tc : Thread nD τ).loc main_arg1)) (m ((c.tc : Thread nD τ).loc main_arg3)) (m ((c.tc : Thread nD τ).loc main_arg0)) (m ((c.tc : Thread nD τ).loc main_arg2)) :=
  (Cert.ReferenceIdeal.Read.val_main_v68_eq m c).trans
    (Cert.ReferenceIdeal.RefCell.result_c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)))

/-- Every weakly fair execution of the reference terminates without a fault with its two results at the specification's
    arrays of the launched arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v71)
          = Cert.DualCell.hArr ![m ((c.tc : Thread nD τ).loc main_arg5), m ((c.tc : Thread nD τ).loc main_arg7), m ((c.tc : Thread nD τ).loc main_arg9), m ((c.tc : Thread nD τ).loc main_arg11)] ![m ((c.tc : Thread nD τ).loc main_arg13), m ((c.tc : Thread nD τ).loc main_arg15), m ((c.tc : Thread nD τ).loc main_arg17), m ((c.tc : Thread nD τ).loc main_arg19)]
              ![m ((c.tc : Thread nD τ).loc main_arg6), m ((c.tc : Thread nD τ).loc main_arg8), m ((c.tc : Thread nD τ).loc main_arg10), m ((c.tc : Thread nD τ).loc main_arg12)] ![m ((c.tc : Thread nD τ).loc main_arg14), m ((c.tc : Thread nD τ).loc main_arg16), m ((c.tc : Thread nD τ).loc main_arg18), m ((c.tc : Thread nD τ).loc main_arg20)]
              (m ((c.tc : Thread nD τ).loc main_arg1)) (m ((c.tc : Thread nD τ).loc main_arg3)) (m ((c.tc : Thread nD τ).loc main_arg0)) (m ((c.tc : Thread nD τ).loc main_arg2))
      ∧ r.2.mem ((c.tc : Thread nD τ).loc main_v68)
          = Cert.DualCell.cArr ![m ((c.tc : Thread nD τ).loc main_arg5), m ((c.tc : Thread nD τ).loc main_arg7), m ((c.tc : Thread nD τ).loc main_arg9), m ((c.tc : Thread nD τ).loc main_arg11)] ![m ((c.tc : Thread nD τ).loc main_arg13), m ((c.tc : Thread nD τ).loc main_arg15), m ((c.tc : Thread nD τ).loc main_arg17), m ((c.tc : Thread nD τ).loc main_arg19)]
              ![m ((c.tc : Thread nD τ).loc main_arg6), m ((c.tc : Thread nD τ).loc main_arg8), m ((c.tc : Thread nD τ).loc main_arg10), m ((c.tc : Thread nD τ).loc main_arg12)] ![m ((c.tc : Thread nD τ).loc main_arg14), m ((c.tc : Thread nD τ).loc main_arg16), m ((c.tc : Thread nD τ).loc main_arg18), m ((c.tc : Thread nD τ).loc main_arg20)]
              (m ((c.tc : Thread nD τ).loc main_arg1)) (m ((c.tc : Thread nD τ).loc main_arg3)) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c).1.trans (res_h m c), (h c).2.1.trans (res_c m c), (h c).2.2⟩)
    (Cert.ReferenceIdeal.Value.run (F := Ideal) m ρ)

end Cert.ReferenceIdeal.RefRun

end
-- ==== Proof.lean ====
/-
  A two-branch gated recurrent cell computed by one accelerator kernel over blocks of 128 batch rows, against its
  plain reference: both compute, on the extended reals, the same new hidden state and new cell state of the same
  arguments.

  The kernel stacks each branch's four gate weights on the host (hidden columns and input columns apart), and per
  block forms the pre-activations as a hidden-part product plus an input-part product plus the bias, then
  `c' = (σf₁ + σf₂)·c + (σi₁·tanh g₁ + σi₂·tanh g₂)` and `h' = (σo₁ + σo₂)·tanh c'`. The reference multiplies the
  joined row `[h | y]` by the transposed stacked weights in one product, spells the logistic function as
  `1 / (1 + e^(−x))`, and forms `c' = (σf₁·c + σi₁·tanh g₁) + (σf₂·c + σi₂·tanh g₂)`. The two agree because a sum over
  the 1536 joined columns is the sum over its first 1024 and its last 512, and because `(a + b)·c = a·c + b·c` for
  nonnegative `a`, `b` — the logistic function is nonnegative — with no finiteness needed of `c`.

  The three frames: each kernel program is a line of host operations and one region whose body loads its blocks and
  overwrites its two output buffers, so it terminates without a fault and writes no argument; the reference is a
  straight line of host operations. The idealization rewrote nothing, so it preserves the kernel trivially.
-/
import proofs.«145507_j13769665150976_2_alg».proof.Defs
import proofs.«145507_j13769665150976_2_alg».proof.Proof.Gen.Kernel
import proofs.«145507_j13769665150976_2_alg».proof.Proof.Gen.KernelIdeal
import proofs.«145507_j13769665150976_2_alg».proof.Proof.Gen.ReferenceIdeal
import proofs.«145507_j13769665150976_2_alg».proof.Proof.Gen.Pre_finite_inputs
import proofs.«145507_j13769665150976_2_alg».proof.Proof.Gen.ReferenceIdeal.Run
import proofs.«145507_j13769665150976_2_alg».proof.Proof.Gen.ReferenceIdeal.Read
import proofs.«145507_j13769665150976_2_alg».proof.Proof.KBRegion
import proofs.«145507_j13769665150976_2_alg».proof.Proof.KIRegion
import proofs.«145507_j13769665150976_2_alg».proof.Proof.KIValue
import proofs.«145507_j13769665150976_2_alg».proof.Proof.RefRun
import Idealize.ShloMosaic.Adequacy
import Idealize.ShloMosaic.Init

noncomputable section

namespace Cert.Proof

open Idealize.ShloMosaic Idealize.ShloMosaic.TcCoe Idealize.SL.Sem

/-- The kernel program, as printed, runs to the end and leaves its arguments unchanged. -/
theorem frame_k : Cert.frame_Kernel := fun m ρ _ => Cert.Kernel.Region.frame m ρ

/-- So does its idealization. -/
theorem frame_ki : Cert.frame_KernelIdeal := fun m ρ _ => Cert.KernelIdeal.Region.frame m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

set_option maxHeartbeats 4000000 in
/-- Both programs end with the specification's new hidden state and new cell state of their (agreeing) arguments. -/
theorem algebraic : Cert.algebraic_KernelIdeal_ReferenceIdeal := by
  intro m ρ m' ρ' _ hagree
  refine ⟨fun c => Cert.KernelIdeal.Arrays.Hres m c, fun c => Cert.KernelIdeal.Arrays.Cres m c,
    Cert.KernelIdeal.Arrays.run m ρ, ?_⟩
  refine (θ_run Cert.ReferenceIdeal.defs _ _).mono (fun _ h c => ?_) (Cert.ReferenceIdeal.RefRun.run m' ρ')
  obtain ⟨e0, e1, e2, e3, e4, e5, e6, e7, e8, e9, e10, e11, e12, e13, e14, e15, e16, e17, e18, e19, e20⟩ := hagree c
  refine ⟨(h c).1.trans ?_, (h c).2.1.trans ?_, (h c).2.2⟩
  · rw [e0, e1, e2, e3, e5, e6, e7, e8, e9, e10, e11, e12, e13, e14, e15, e16, e17, e18, e19, e20]
  · rw [e0, e1, e2, e3, e5, e6, e7, e8, e9, e10, e11, e12, e13, e14, e15, e16, e17, e18, e19, e20]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
